-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x32 : Shape := ⟨2, ![128, 32]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x32 : S_.BroadcastsInDim S128x32 (![] : Fin 0 → Fin S128x32.rank)
  reducesTo_S128x32_S_d0_1 : S128x32.ReducesTo [0, 1] S_

variable [Facts]

def fn {F : FTy → Type} [FloatOps F] (main_arg0 : FVec F S16384x128 .f32) (main_arg1 : FVec F S16384x16384 .f32) (main_arg2 : FVec F S128x32 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  main_v13
-- ==== Kernel.lean ====
abbrev S16384x128 : Shape := ⟨2, ![16384, 128]⟩
abbrev S16384x16384 : Shape := ⟨2, ![16384, 16384]⟩
abbrev S128x32 : Shape := ⟨2, ![128, 32]⟩
abbrev S16384x32 : Shape := ⟨2, ![16384, 32]⟩
abbrev S2048x128 : Shape := ⟨2, ![2048, 128]⟩
abbrev S2048x32 : Shape := ⟨2, ![2048, 32]⟩
abbrev S1024x4096 : Shape := ⟨2, ![1024, 4096]⟩
abbrev S1024x32 : Shape := ⟨2, ![1024, 32]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x32, .f32⟩
  | .hbm, ⟨3, _⟩ => ⟨S16384x32, .bf16⟩
  | .hbm, ⟨4, _⟩ => ⟨S16384x32, .f32⟩
  | .local _ .vmem, ⟨0, _⟩ => ⟨S2048x128, .f32⟩
  | .local _ .vmem, ⟨1, _⟩ => ⟨S2048x128, .f32⟩
  | .local _ .vmem, ⟨2, _⟩ => ⟨S128x32, .f32⟩
  | .local _ .vmem, ⟨3, _⟩ => ⟨S2048x32, .bf16⟩
  | .local _ .vmem, ⟨4, _⟩ => ⟨S2048x32, .bf16⟩
  | .local _ .vmem, ⟨5, _⟩ => ⟨S1024x4096, .f32⟩
  | .local _ .vmem, ⟨6, _⟩ => ⟨S1024x4096, .f32⟩
  | .local _ .vmem, ⟨7, _⟩ => ⟨S16384x32, .bf16⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

@[reducible] def k1_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k1_mult1 (k1_t1 : Fin k1_t1_loop.trips) : BitVec 32 :=
  let c0_i32_1 : BitVec 32 := 0#32
  let c1_i32 : BitVec 32 := 1#32
  let arg6 : BitVec 32 := Scf.iv c0_i32_1 c1_i32 k1_t1
  let c1024_i32 : BitVec 32 := 1024#32
  let v7 : BitVec 32 := Scalar.muli arg6 c1024_i32
  v7
def k1_off1 (k1_t1 : Fin k1_t1_loop.trips) : Fin 2 → Nat :=
  let c0 : Index := 0#32
  let c0_i32_1 : BitVec 32 := 0#32
  let c1_i32 : BitVec 32 := 1#32
  let arg6 : BitVec 32 := Scf.iv c0_i32_1 c1_i32 k1_t1
  let c1024_i32 : BitVec 32 := 1024#32
  let v7 : BitVec 32 := Scalar.muli arg6 c1024_i32
  let v8 : BitVec 32 := v7
  let v9 : Index := Scalar.indexCast v8
  ![0, v9.toNat]
def k1_mult2 (i : grid1.Coords) (k1_t1 : Fin k1_t1_loop.trips) : BitVec 32 :=
  let arg1 : BitVec 32 := BitVec.ofNat 32 (i 1).val
  let c4096_i32 : BitVec 32 := 4096#32
  let v12 : BitVec 32 := Scalar.muli arg1 c4096_i32
  let c0_i32_1 : BitVec 32 := 0#32
  let c1_i32 : BitVec 32 := 1#32
  let arg6 : BitVec 32 := Scf.iv c0_i32_1 c1_i32 k1_t1
  let c1024_i32_4 : BitVec 32 := 1024#32
  let v13 : BitVec 32 := Scalar.muli arg6 c1024_i32_4
  let v14 : BitVec 32 := Scalar.addi v12 v13
  v14
def k1_off2 (i : grid1.Coords) (k1_t1 : Fin k1_t1_loop.trips) : Fin 2 → Nat :=
  let arg1 : BitVec 32 := BitVec.ofNat 32 (i 1).val
  let c4096_i32 : BitVec 32 := 4096#32
  let v12 : BitVec 32 := Scalar.muli arg1 c4096_i32
  let c0_i32_1 : BitVec 32 := 0#32
  let c1_i32 : BitVec 32 := 1#32
  let arg6 : BitVec 32 := Scf.iv c0_i32_1 c1_i32 k1_t1
  let c1024_i32_4 : BitVec 32 := 1024#32
  let v13 : BitVec 32 := Scalar.muli arg6 c1024_i32_4
  let v14 : BitVec 32 := Scalar.addi v12 v13
  let v15 : BitVec 32 := v14
  let v16 : Index := Scalar.indexCast v15
  let c0_5 : Index := 0#32
  ![v16.toNat, 0]
def k1_cond2 (i : grid1.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2048x32_S2048x32_0_0 : ∀ a, (![0, 0] : Fin 2 → Nat) a + S2048x32.size a ≤ S2048x32.size a
  h_S2048x32 : 0 < S2048x32.numel
  packedbf16_S2048x32_S2048x32_0_0 : (Rect.unit (s := S2048x32) ![0, 0] S2048x32.size inb_S2048x32_S2048x32_0_0).PackedRows (EltTy.packing .bf16)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  h_S1024x1024 : 0 < S1024x1024.numel
  dot_S2048x128_S128x32_S2048x32_1_0_0_1_n_n_wf : DotDims.WF S2048x128 S128x32 S2048x32 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .bf16 = 32 ∨ (Rect.block (s := S16384x32) S2048x32.size (cc0_transform_2 i) (hinb0_2 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S1024x1024.size a ≤ S1024x4096.size a
  k1_mult2_dvd : ∀ (i : grid1.Coords) (k1_t1 : Fin k1_t1_loop.trips), 128 ∣ (k1_mult2 i k1_t1).toNat
  k1_off2_inb : ∀ (i : grid1.Coords) (k1_t1 : Fin k1_t1_loop.trips), ∀ a, (k1_off2 i k1_t1) a + S1024x32.size a ≤ S16384x32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .f32 = 32 ∨ (Rect.block (s := S16384x16384) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x32.size a ≤ S16384x32.size a
  hwx1_1 : ∀ i : grid1.Coords, EltTy.bits .bf16 = 32 ∨ (Rect.block (s := S16384x32) S16384x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S16384x32.size a
  hwx1_2 : ∀ i : grid1.Coords, EltTy.bits .f32 = 32 ∨ (Rect.block (s := S16384x32) S1024x32.size (cc1_transform_2 i) (hinb1_2 i)).WholeWords (EltTy.packing .f32)

variable [Facts₀]

def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x32 : Shape := ⟨2, ![128, 32]⟩
abbrev S16384x32 : Shape := ⟨2, ![16384, 32]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x32, .f32⟩
  | .hbm, ⟨3, _⟩ => ⟨S16384x32, .f32⟩
  | .hbm, ⟨4, _⟩ => ⟨S16384x32, .f32⟩
  | .hbm, ⟨5, _⟩ => ⟨S_, .f32⟩
  | .hbm, ⟨6, _⟩ => ⟨S16384x32, .f32⟩
  | .hbm, ⟨7, _⟩ => ⟨S16384x32, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S16384x32 : S_.BroadcastsInDim S16384x32 (![] : Fin 0 → Fin S16384x32.rank)
  dot_S16384x128_S128x32_S16384x32_1_0_0_1_n_n_wf : DotDims.WF S16384x128 S128x32 S16384x32 [1] [0] [0] [1] [] []
  dot_S16384x16384_S16384x32_S16384x32_1_0_0_1_n_n_wf : DotDims.WF S16384x16384 S16384x32 S16384x32 [1] [0] [0] [1] [] []

variable [Facts₀]

def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x16384_S16384x32_S16384x32_1_0_0_1_n_n : DotDims S16384x16384 S16384x32 S16384x32 where
  lhsContracting := [1]
  rhsContracting := [0]
  lhsNonContracting := [0]
  rhsNonContracting := [1]
  lhsBatch := []
  rhsBatch := []
  wf := dot_S16384x16384_S16384x32_S16384x32_1_0_0_1_n_n_wf

class Facts : Prop extends Facts₀ where

variable [Facts]
-- ==== Proof.BitsFrame0.lean ====
/-
  The dense projection's launch (the first of the program's two kernel launches), at any float instance.

  The grid has 8 points; point t stages rows 2048·t … 2048·t + 2047 of the features (a [2048, 128] block), the whole
  [128, 32] weight, and writes back a [2048, 32] block of the projected features. The body loads the two input
  blocks, multiplies them into a zero accumulator, rounds to the output's format and stores the whole output block:
  the output's staging buffer ends at the one payload of the two input blocks, whatever it held before, and nothing
  is kept from one point to the next. Stated for any contents `V` of the core's buffers when the launch is entered.
-/
import proofs.«107262_j54331336295083_2_alg».proof.Proof.Gen.Kernel.Launch
import proofs.«107262_j54331336295083_2_alg».proof.Proof.Gen.Kernel.Skeleton
import proofs.«107262_j54331336295083_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block of rows, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point (fetched once; its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole features block, the whole weight, the whole output block, as the body's rectangles. -/
abbrev rX0 : Rect S2048x128 := Rect.unit (s := S2048x128) ![0, 0] S2048x128.size inb_S2048x128_S2048x128_0_0
abbrev rW0 : Rect S128x32 := Rect.unit (s := S128x32) ![0, 0] S128x32.size inb_S128x32_S128x32_0_0
abbrev rO0 : Rect S2048x32 := Rect.unit (s := S2048x32) ![0, 0] S2048x32.size inb_S2048x32_S2048x32_0_0

/-- What the body leaves in the output's staging buffer: its one store, of the product of the two input blocks. -/
def out0_2 (x0 : Vec F S2048x128 .f32) (x1 : Vec F S128x32 .f32) : Vec F S2048x32 .bf16 :=
  View.canon [⟨rO0, k0_pay1 (View.ld x0 rX0) (View.ld x1 rW0)⟩]

/-- The one store covers the buffer. -/
theorem cover0_2 (p0 : Vec F S2048x32 .bf16) (y : S2048x32.Idx) :
    ∃ pc ∈ ([⟨rO0, p0⟩] : List (View.Piece (Elt F) S2048x32 .bf16)), y ∈ pc.1.set :=
  View.cover_of_tiled [⟨rO0, p0⟩] S2048x32.size (by rfl) y

set_option maxHeartbeats 1000000 in
/-- The body on whole staging buffers: the inputs at contents `x0`, `x1`, the output at anything; it ends with the
    inputs as they were and the output at `out0_2 x0 x1`. -/
theorem sound_kernel0 (c : Dev nD) (E : Set ℕ) (i : grid0.Coords) (arg1 : Memref sig .tc .vmem S2048x128 .f32) (harg1 : arg1.IsWhole) (arg2 : Memref sig .tc .vmem S128x32 .f32) (harg2 : arg2.IsWhole) (arg3 : Memref sig .tc .vmem S2048x32 .bf16) (harg3 : arg3.IsWhole)
    (x0 : Vec F S2048x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as found; after the body each input's buffer at its block and the
    output's at the product of the two; nothing kept between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsFrame1a.lean ====
/-
  The aggregation's launch (the second of the program's two kernel launches), at any float instance.

  The grid is 16 × 4: point (i, k) stages the [1024, 4096] block (i, k) of the adjacency matrix and the whole
  [16384, 32] array of projected features, and owns a [1024, 32] accumulator that lives from point to point. At
  k = 0 the body clears the accumulator; at every point a counted loop of four trips adds, trip after trip, the
  product of a [1024, 1024] slice of the adjacency block with the matching 1024 rows of the projected features;
  at k = 3 it stores the accumulator, clamped below at zero, as rows 1024·i … 1024·i + 1023 of the result, which
  the launch writes back there and only there.

  So the accumulator after a point is a fold over the point's four trips, started from zeros (k = 0) or from what
  the point before left (k > 0): `scrAt`. The loop is read through its generated invariant — the buffer holds the
  pieces of the trips so far written over what it held at entry — and one trip's piece is opened once (`tripL_eq`).
  Stated for any contents `V` of the core's buffers when the launch is entered.
-/
import proofs.«107262_j54331336295083_2_alg».proof.Proof.Gen.Kernel.Launch
import proofs.«107262_j54331336295083_2_alg».proof.Proof.Gen.Kernel.Skeleton
import proofs.«107262_j54331336295083_2_alg».proof.Proof.Gen.Kernel.Points
import proofs.«107262_j54331336295083_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer holds the point's block, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features' staging buffer holds the whole array at every point (fetched once; its index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator in closed form -/

/-- Trip `k`'s slice of the adjacency block: all 1024 rows, columns 1024·k … 1024·k + 1023. -/
abbrev rA1 (k : Fin k1_t1_loop.trips) : Rect S1024x4096 := Rect.unit (s := S1024x4096) (k1_off1 k) S1024x1024.size (k1_off1_inb k)
/-- Trip `k`'s rows of the projected features at a point of column-block `i 1`: rows 4096·(i 1) + 1024·k and the 1023 after. -/
abbrev rS1 (i : grid1.Coords) (k : Fin k1_t1_loop.trips) : Rect S16384x32 := Rect.unit (s := S16384x32) (k1_off2 i k) S1024x32.size (k1_off2_inb i k)
/-- The whole accumulator (and the whole output block). -/
abbrev rO1 : Rect S1024x32 := Rect.unit (s := S1024x32) ![0, 0] S1024x32.size inb_S1024x32_S1024x32_0_0

/-- A store of the whole buffer covers it. -/
theorem cover1 (p0 : Vec F S1024x32 .f32) (y : S1024x32.Idx) :
    ∃ pc ∈ ([⟨rO1, p0⟩] : List (View.Piece (Elt F) S1024x32 .f32)), y ∈ pc.1.set :=
  View.cover_of_tiled [⟨rO1, p0⟩] S1024x32.size (by rfl) y

/-- The cleared accumulator. -/
def zeroC : Vec F S1024x32 .f32 := View.canon [⟨rO1, k1_pay1 (F := F)⟩]

/-- The accumulator after trip `k`, from the adjacency block `x0`, the projected features `x1` and the accumulator before. -/
def tripC (i : grid1.Coords) (x0 : Vec F S1024x4096 .f32) (x1 : Vec F S16384x32 .bf16) (k : Fin k1_t1_loop.trips) (acc : Vec F S1024x32 .f32) : Vec F S1024x32 .f32 :=
  View.canon [⟨rO1, k1_pay2 (View.ld x0 (rA1 k)) (View.ld x1 (rS1 i k)) (View.ld acc rO1)⟩]

/-- The accumulator after the first `n` trips. -/
def loopC (i : grid1.Coords) (x0 : Vec F S1024x4096 .f32) (x1 : Vec F S16384x32 .bf16) (acc : Vec F S1024x32 .f32) : ℕ → Vec F S1024x32 .f32
  | 0 => acc
  | n + 1 => if h : n < k1_t1_loop.trips then tripC i x0 x1 ⟨n, h⟩ (loopC i x0 x1 acc n) else loopC i x0 x1 acc n

theorem loopC_succ (i : grid1.Coords) (x0 : Vec F S1024x4096 .f32) (x1 : Vec F S16384x32 .bf16) (acc : Vec F S1024x32 .f32) (k : Fin k1_t1_loop.trips) :
    loopC i x0 x1 acc (k.val + 1) = tripC i x0 x1 k (loopC i x0 x1 acc k.val) := by
  rw [loopC]; exact dif_pos k.isLt

/-- What the body stores into the output block at the last column-block: the accumulator clamped below at zero. -/
def out1_2 (s : Vec F S1024x32 .f32) : Vec F S1024x32 .f32 :=
  View.canon [⟨rO1, k1_pay3 (View.ld s rO1)⟩]

/-! ## The counted loop read through its invariant -/

/-- One trip's pieces: a single store of the whole accumulator, of the trip's payload over the three loads. -/
theorem tripL_eq (𝒱 : Variants) (c : Dev nD) (bd : Option 𝒱.V) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole) (X2 : BufTy.Contents (Elt F) arg2.view.ty) (X3 : BufTy.Contents (Elt F) arg3.view.ty) (k : Fin k1_t1_loop.trips) (f : BufTy.Contents (Elt F) arg5.view.ty) :
    tripL_k1_t1 (F := F) 𝒱 c bd i arg2 harg2 arg3 harg3 arg4 harg4 arg5 harg5 X2 X3 k f
      = [⟨rO1, k1_pay2 (View.ld (arg2.view.read (Elt F) X2) (rA1 k)) (View.ld (arg3.view.read (Elt F) X3) (rS1 i k)) (View.ld (arg5.view.read (Elt F) f) rO1)⟩] := by
  unfold tripL_k1_t1 trip_k1_t1
  rfl

/-- After one trip's pieces the accumulator reads as the trip's closed form. -/
theorem trip_read (𝒱 : Variants) (c : Dev nD) (bd : Option 𝒱.V) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole) (X2 : BufTy.Contents (Elt F) arg2.view.ty) (X3 : BufTy.Contents (Elt F) arg3.view.ty) (k : Fin k1_t1_loop.trips) (f : BufTy.Contents (Elt F) arg5.view.ty) :
    arg5.view.read (Elt F) (arg5.view.writes (Elt F) f (tripL_k1_t1 (F := F) 𝒱 c bd i arg2 harg2 arg3 harg3 arg4 harg4 arg5 harg5 X2 X3 k f))
      = tripC i (arg2.view.read (Elt F) X2) (arg3.view.read (Elt F) X3) k (arg5.view.read (Elt F) f) := by
  rw [tripL_eq]
  exact View.read_writes_eq_canon _ _ _ (cover1 _)

/-- After the first `n` trips' pieces, written over the contents `G` at loop entry, the accumulator reads as the fold. -/
theorem loop_read (𝒱 : Variants) (c : Dev nD) (bd : Option 𝒱.V) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole) (X2 : BufTy.Contents (Elt F) arg2.view.ty) (X3 : BufTy.Contents (Elt F) arg3.view.ty) (G : BufTy.Contents (Elt F) arg5.view.ty) :
    ∀ n : ℕ, n ≤ k1_t1_loop.trips →
      arg5.view.read (Elt F) (arg5.view.writes (Elt F) G (pb_k1_t1 (F := F) 𝒱 c bd i arg2 harg2 arg3 harg3 arg4 harg4 arg5 harg5 X2 X3 G n))
        = loopC i (arg2.view.read (Elt F) X2) (arg3.view.read (Elt F) X3) (arg5.view.read (Elt F) G) n
  | 0, _ => by rw [pb_k1_t1.eq_1]; rfl
  | n + 1, hn => by
    have ih := loop_read 𝒱 c bd i arg2 harg2 arg3 harg3 arg4 harg4 arg5 harg5 X2 X3 G n (Nat.le_of_succ_le hn)
    have hs := pb_k1_t1_succ (F := F) 𝒱 c bd i arg2 harg2 arg3 harg3 arg4 harg4 arg5 harg5 X2 X3 G ⟨n, hn⟩
    rw [show (⟨n, hn⟩ : Fin k1_t1_loop.trips).val + 1 = n + 1 from rfl] at hs
    rw [hs, View.writes_append, trip_read, ih]
    exact (loopC_succ i _ _ _ ⟨n, hn⟩).symm

end Cert.Kernel.Fr

end
-- ==== Proof.BitsFrame1b.lean ====
/-
  The aggregation's launch, continued: the body's three control cases, the invariant that carries the accumulator
  from point to point, the proof data and the body obligation.

  A point's column-block k = t mod 4 decides the case: k = 0 clears the accumulator before the loop and stores no
  output; k = 1, 2 only run the loop; k = 3 runs the loop and stores the clamped accumulator as the output block.
  In each case the body leaves the two input buffers as found and the accumulator at the four-trip fold of what it
  started from. Between points the invariant holds the accumulator at `scrAt`: the fold of the point's trips over
  zeros (k = 0) or over what the point before left. The output's staging buffer is untouched where k < 3.
-/
import proofs.«107262_j54331336295083_2_alg».proof.Proof.Gen.Kernel.Launch
import proofs.«107262_j54331336295083_2_alg».proof.Proof.Gen.Kernel.Skeleton
import proofs.«107262_j54331336295083_2_alg».proof.Proof.Gen.Kernel.Points
import proofs.«107262_j54331336295083_2_alg».proof.Proof.BitsFrame1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "The column-block is the first": the body clears the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The column-block is the last": the body stores the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output is idle, and not written back, off the last column-block. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body, case by case -/

set_option maxHeartbeats 2000000 in
/-- First column-block: the accumulator, whatever it held, is cleared and then folded over the four trips. -/
theorem sound_A (c : Dev nD) (E : Set ℕ) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole)
    (hc0 : cond1_0 i) (hc1 : ¬cond1_1 i)
    (x0 : Vec F S1024x4096 .f32) (x1 : Vec F S16384x32 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (loopC i x0 x1 zeroC k1_t1_loop.trips)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.writes_append]
  refine (loop_read Variants.none c none i arg2 harg2 arg3 harg3 arg4 harg4 arg5 harg5 f0 f1 _ _ le_rfl).trans ?_
  refine congrArg (fun z => loopC i _ _ z k1_t1_loop.trips) ?_
  sl_unfold_run_names
  exact View.read_writes_eq_canon _ _ _ (cover1 _)

set_option maxHeartbeats 2000000 in
/-- Middle column-blocks: the accumulator is folded over the four trips from what it held. -/
theorem sound_B (c : Dev nD) (E : Set ℕ) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : ¬cond1_1 i)
    (x0 : Vec F S1024x4096 .f32) (x1 : Vec F S16384x32 .bf16) (xs : Vec F S1024x32 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (loopC i x0 x1 xs k1_t1_loop.trips)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact loop_read Variants.none c none i arg2 harg2 arg3 harg3 arg4 harg4 arg5 harg5 f0 f1 fs _ le_rfl

set_option maxHeartbeats 2000000 in
/-- Last column-block: the accumulator is folded over the four trips, and the output block, whatever it held, is
    stored whole with the clamped accumulator. -/
theorem sound_C (c : Dev nD) (E : Set ℕ) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : cond1_1 i)
    (x0 : Vec F S1024x4096 .f32) (x1 : Vec F S16384x32 .bf16) (xs : Vec F S1024x32 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (out1_2 (loopC i x0 x1 xs k1_t1_loop.trips)) ∗ owns (c : Thread nD τ) arg5 fullShare (loopC i x0 x1 xs k1_t1_loop.trips)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_eq_canon _ _ _ (cover1 _)).trans ?_
    rw [out1_2, ← loop_read Variants.none c none i arg2 harg2 arg3 harg3 arg4 harg4 arg5 harg5 f0 f1 fs _ le_rfl]
    rfl
  iexists _; isplitr
  swap; · iexact HS
  ipureintro
  exact loop_read Variants.none c none i arg2 harg2 arg3 harg3 arg4 harg4 arg5 harg5 f0 f1 fs _ le_rfl

/-! ## The accumulator point by point, and the invariant -/

/-- The accumulator after the body at position `n`: the four-trip fold over zeros at a first column-block, over what
    position `n - 1` left otherwise. -/
def scrAt (c : Dev nD) : (n : ℕ) → n < cfg1.N → Vec F S1024x32 .f32
  | 0, hn => loopC (grid1.coords ⟨0, hn⟩) (iblk1 V c 0 ⟨0, hn⟩) (iblk1 V c 1 ⟨0, hn⟩) zeroC k1_t1_loop.trips
  | n + 1, hn => loopC (grid1.coords ⟨n + 1, hn⟩) (iblk1 V c 0 ⟨n + 1, hn⟩) (iblk1 V c 1 ⟨n + 1, hn⟩)
      (if (n + 1) % 4 = 0 then zeroC else scrAt c n (Nat.lt_of_succ_lt hn)) k1_t1_loop.trips

theorem scrAt_first (c : Dev nD) (t : Fin cfg1.N) (h0 : t.val % 4 = 0) :
    scrAt V c t.val t.isLt = loopC (grid1.coords t) (iblk1 V c 0 t) (iblk1 V c 1 t) zeroC k1_t1_loop.trips := by
  obtain ⟨n, hn⟩ := t
  cases n with
  | zero => rfl
  | succ n => rw [scrAt, if_pos h0]

theorem scrAt_later (c : Dev nD) (t : Fin cfg1.N) (h0 : ¬t.val % 4 = 0) :
    scrAt V c t.val t.isLt = loopC (grid1.coords t) (iblk1 V c 0 t) (iblk1 V c 1 t)
      (scrAt V c (t.val - 1) (Nat.lt_of_le_of_lt (Nat.sub_le _ _) t.isLt)) k1_t1_loop.trips := by
  obtain ⟨n, hn⟩ := t
  cases n with
  | zero => exact absurd (Nat.zero_mod _) h0
  | succ n => rw [scrAt, if_neg h0]; rfl

/-- The accumulator as the body's operand: the kernel's own whole scratch buffer. -/
abbrev scM1 : Memref sig .tc .vmem S1024x32 .f32 := Memref.whole cc1_scratch0

/-- The invariant's shape: the other launch's five staging buffers at anything, the accumulator as `S` says, the
    generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- What a launch hands a body that may use its scratch and need not describe it is that shape with the accumulator at anything. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; rfl

/-- The invariant before position `n`: before the first point the accumulator is at anything; afterwards at what the
    point before left. -/
def PhiS (c : Dev nD) : (n : ℕ) → n ≤ cfg1.N → sProp 𝕄
  | 0, _ => Pipeline.ΦA spec1 c
  | n + 1, hn => PhiWith c (owns (c : Thread nD τ) scM1 fullShare (scrAt V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1 fullShare (scrAt V c n hn)) := rfl
theorem PhiS_pos (c : Dev nD) (n : ℕ) (h : n ≤ cfg1.N) (hz : n ≠ 0) :
    PhiS V c n h = PhiWith c (owns (c : Thread nD τ) scM1 fullShare (scrAt V c (n - 1) (by omega))) := by
  cases n with
  | zero => exact absurd rfl hz
  | succ n => rfl

/-! ## The proof data -/

/-- The launch's proof data on core `c`: the arrays as found; after the body each input's buffer at its block and the
    output's at the clamped accumulator (consulted only where the body stores it); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (scrAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (scrAt V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h3 : t.val % 4 = 3
  · -- the last column-block: the loop, then the output block
    have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h3)], after1_2]
    rw [scrAt_later V c t h0, PhiS_castSucc V c t, PhiS_pos V c _ _ hz]
    unfold PhiWith
    iintro ⟨⟨⟨Ha, Hb, Hc, Hd, He, HS⟩, Hg⟩, Ho, ⟨%d0, H0⟩, ⟨%d1, H1⟩, ⟨%d2, H2⟩⟩
    iapply (sound_C c Set.univ (grid1.coords t) _ _ _ _ _ _ _ _ (fun h => h0 ((hcond1_0 t).mp h)) ((hcond1_1 t).mpr h3) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Ha Hb Hc Hd He HS Hg]
    · isplitr [Hg]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    iexact H2
  · have hc1 : ¬cond1_1 (grid1.coords t) := fun h => h3 ((hcond1_1 t).mp h)
    rw [Dat.leavesExact_idle (dat1 V c) 2 t (idleAt1_2 t hc1) (noFlush1_2 t hc1)]
    by_cases h0 : t.val % 4 = 0
    · -- the first column-block: clear, then the loop
      rw [scrAt_first V c t h0]
      have hA : (dat1 V c).Φ t.castSucc ⊢ PhiWith c (iprop(∃ d, owns (c : Thread nD τ) scM1 fullShare d)) := by
        rw [PhiS_castSucc V c t]
        by_cases hz : t.val = 0
        · rw [PhiS_zero V c _ _ hz, PhiA1_eq]
        · rw [PhiS_pos V c _ _ hz]; unfold PhiWith
          iintro ⟨⟨Ha, Hb, Hc, Hd, He, HS⟩, Hg⟩
          isplitr [Hg]
          · isplitl [Ha]; · iexact Ha
            isplitl [Hb]; · iexact Hb
            isplitl [Hc]; · iexact Hc
            isplitl [Hd]; · iexact Hd
            isplitl [He]; · iexact He
            iexists _; iexact HS
          iexact Hg
      iintro ⟨HΦ, Ho, ⟨%d0, H0⟩, ⟨%d1, H1⟩, H2⟩
      ihave HΦ' := hA $$ HΦ
      unfold PhiWith
      icases HΦ' with ⟨⟨Ha, Hb, Hc, Hd, He, HS⟩, Hg⟩
      iapply (sound_A c Set.univ (grid1.coords t) _ _ _ _ _ _ _ _ ((hcond1_0 t).mpr h0) hc1 (iblk1 V c 0 t) (iblk1 V c 1 t) _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · -- a middle column-block: the loop only
      have hz : t.val ≠ 0 := fun h => h0 (by rw [h])
      rw [scrAt_later V c t h0, PhiS_castSucc V c t, PhiS_pos V c _ _ hz]
      unfold PhiWith
      iintro ⟨⟨⟨Ha, Hb, Hc, Hd, He, HS⟩, Hg⟩, Ho, ⟨%d0, H0⟩, ⟨%d1, H1⟩, H2⟩
      iapply (sound_B c Set.univ (grid1.coords t) _ _ _ _ _ _ _ _ (fun h => h0 ((hcond1_0 t).mp h)) hc1 (iblk1 V c 0 t) (iblk1 V c 1 t) _ _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives it back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold PhiWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.Kernel.Fr

end
-- ==== Proof.BitsRun.lean ====
/-
  The program's run: its two kernel launches in order, at any float instance.

  @main is the dense projection's launch, then the aggregation's. Between them the core's buffers hold: at the start
  the launch memory; after the first launch the same with the projected features' array at what its eight
  write-backs left; after the second the same with the result's array at what the sixteen write-backs of the last
  column-blocks left. Neither launch writes an argument array, so each ends as launched; and the result array ends
  at the second launch's write-backs folded over its proof data, which the value lemmas read index by index.
-/
import proofs.«107262_j54331336295083_2_alg».proof.Proof.Gen.Kernel.Launch
import proofs.«107262_j54331336295083_2_alg».proof.Proof.Gen.Kernel.Skeleton
import proofs.«107262_j54331336295083_2_alg».proof.Proof.Gen.Kernel.Points
import proofs.«107262_j54331336295083_2_alg».proof.Proof.BitsFrame0
import proofs.«107262_j54331336295083_2_alg».proof.Proof.BitsFrame1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (what the first launch is entered from). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second launch: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched, and the arrays the second launch reads -/

/-- The features: staged by the first launch as an input, bypassed by the second. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The weight: likewise. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- The adjacency matrix, as the second launch finds it: bypassed by the first. -/
theorem V1_main_arg1 (c : Dev nD) : V1 m ρ c main_arg1 = m ((c : Thread nD τ).loc main_arg1) :=
  (W1_of_ne m ρ c main_arg1 (by decide)).trans rfl
/-- The adjacency matrix: staged by the second launch as an input. -/
theorem W2_main_arg1 (c : Dev nD) : W2 m ρ c (Proc.devRef .tc main_arg1) = m ((c : Thread nD τ).loc main_arg1) :=
  (W2_arr m ρ c 0).trans ((((dat1 (V1 m ρ) c).arrAt_in 0 rfl _).trans (A_eq1 (V1 m ρ) c 0)).trans (V1_main_arg1 m ρ c))
/-- The projected features, as the second launch finds them: what the first launch's write-backs left. -/
theorem V1_main_v0 (c : Dev nD) : V1 m ρ c main_v0 = (dat0 (V0 m ρ) c).arrAt 2 cfg0.N := W1_arr m ρ c 2
/-- The features and the weight as the first launch finds them. -/
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl
/-- The result: what the second launch's write-backs left. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]; refine (hout1 (V1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state the result array holds the second launch's write-backs folded over its proof data, and the
    three argument arrays hold their launch contents. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- THE FRAME: the run, read at the argument arrays only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Fr

end
-- ==== Proof.Frame0.lean ====
/-
  The dense projection's launch (the first of the program's two kernel launches), at any float instance.

  The grid has 8 points; point t stages rows 2048·t … 2048·t + 2047 of the features (a [2048, 128] block), the whole
  [128, 32] weight, and writes back a [2048, 32] block of the projected features. The body loads the two input
  blocks, multiplies them into a zero accumulator, rounds to the output's format and stores the whole output block:
  the output's staging buffer ends at the one payload of the two input blocks, whatever it held before, and nothing
  is kept from one point to the next. Stated for any contents `V` of the core's buffers when the launch is entered.
-/
import proofs.«107262_j54331336295083_2_alg».proof.Proof.Gen.KernelIdeal.Launch
import proofs.«107262_j54331336295083_2_alg».proof.Proof.Gen.KernelIdeal.Skeleton
import proofs.«107262_j54331336295083_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features' staging buffer holds the point's block of rows, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point (fetched once; its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole features block, the whole weight, the whole output block, as the body's rectangles. -/
abbrev rX0 : Rect S2048x128 := Rect.unit (s := S2048x128) ![0, 0] S2048x128.size inb_S2048x128_S2048x128_0_0
abbrev rW0 : Rect S128x32 := Rect.unit (s := S128x32) ![0, 0] S128x32.size inb_S128x32_S128x32_0_0
abbrev rO0 : Rect S2048x32 := Rect.unit (s := S2048x32) ![0, 0] S2048x32.size inb_S2048x32_S2048x32_0_0

/-- What the body leaves in the output's staging buffer: its one store, of the product of the two input blocks. -/
def out0_2 (x0 : Vec F S2048x128 .f32) (x1 : Vec F S128x32 .f32) : Vec F S2048x32 .bf16 :=
  View.canon [⟨rO0, k0_pay1 (View.ld x0 rX0) (View.ld x1 rW0)⟩]

/-- The one store covers the buffer. -/
theorem cover0_2 (p0 : Vec F S2048x32 .bf16) (y : S2048x32.Idx) :
    ∃ pc ∈ ([⟨rO0, p0⟩] : List (View.Piece (Elt F) S2048x32 .bf16)), y ∈ pc.1.set :=
  View.cover_of_tiled [⟨rO0, p0⟩] S2048x32.size (by rfl) y

set_option maxHeartbeats 1000000 in
/-- The body on whole staging buffers: the inputs at contents `x0`, `x1`, the output at anything; it ends with the
    inputs as they were and the output at `out0_2 x0 x1`. -/
theorem sound_kernel0 (c : Dev nD) (E : Set ℕ) (i : grid0.Coords) (arg1 : Memref sig .tc .vmem S2048x128 .f32) (harg1 : arg1.IsWhole) (arg2 : Memref sig .tc .vmem S128x32 .f32) (harg2 : arg2.IsWhole) (arg3 : Memref sig .tc .vmem S2048x32 .bf16) (harg3 : arg3.IsWhole)
    (x0 : Vec F S2048x128 .f32) (x1 : Vec F S128x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dense_kernel i arg1 harg1 arg2 harg2 arg3 harg3) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The launch's proof data on core `c`: the arrays as found; after the body each input's buffer at its block and the
    output's at the product of the two; nothing kept between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Frame1a.lean ====
/-
  The aggregation's launch (the second of the program's two kernel launches), at any float instance.

  The grid is 16 × 4: point (i, k) stages the [1024, 4096] block (i, k) of the adjacency matrix and the whole
  [16384, 32] array of projected features, and owns a [1024, 32] accumulator that lives from point to point. At
  k = 0 the body clears the accumulator; at every point a counted loop of four trips adds, trip after trip, the
  product of a [1024, 1024] slice of the adjacency block with the matching 1024 rows of the projected features;
  at k = 3 it stores the accumulator, clamped below at zero, as rows 1024·i … 1024·i + 1023 of the result, which
  the launch writes back there and only there.

  So the accumulator after a point is a fold over the point's four trips, started from zeros (k = 0) or from what
  the point before left (k > 0): `scrAt`. The loop is read through its generated invariant — the buffer holds the
  pieces of the trips so far written over what it held at entry — and one trip's piece is opened once (`tripL_eq`).
  Stated for any contents `V` of the core's buffers when the launch is entered.
-/
import proofs.«107262_j54331336295083_2_alg».proof.Proof.Gen.KernelIdeal.Launch
import proofs.«107262_j54331336295083_2_alg».proof.Proof.Gen.KernelIdeal.Skeleton
import proofs.«107262_j54331336295083_2_alg».proof.Proof.Gen.KernelIdeal.Points
import proofs.«107262_j54331336295083_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer holds the point's block, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features' staging buffer holds the whole array at every point (fetched once; its index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator in closed form -/

/-- Trip `k`'s slice of the adjacency block: all 1024 rows, columns 1024·k … 1024·k + 1023. -/
abbrev rA1 (k : Fin k1_t1_loop.trips) : Rect S1024x4096 := Rect.unit (s := S1024x4096) (k1_off1 k) S1024x1024.size (k1_off1_inb k)
/-- Trip `k`'s rows of the projected features at a point of column-block `i 1`: rows 4096·(i 1) + 1024·k and the 1023 after. -/
abbrev rS1 (i : grid1.Coords) (k : Fin k1_t1_loop.trips) : Rect S16384x32 := Rect.unit (s := S16384x32) (k1_off2 i k) S1024x32.size (k1_off2_inb i k)
/-- The whole accumulator (and the whole output block). -/
abbrev rO1 : Rect S1024x32 := Rect.unit (s := S1024x32) ![0, 0] S1024x32.size inb_S1024x32_S1024x32_0_0

/-- A store of the whole buffer covers it. -/
theorem cover1 (p0 : Vec F S1024x32 .f32) (y : S1024x32.Idx) :
    ∃ pc ∈ ([⟨rO1, p0⟩] : List (View.Piece (Elt F) S1024x32 .f32)), y ∈ pc.1.set :=
  View.cover_of_tiled [⟨rO1, p0⟩] S1024x32.size (by rfl) y

/-- The cleared accumulator. -/
def zeroC : Vec F S1024x32 .f32 := View.canon [⟨rO1, k1_pay1 (F := F)⟩]

/-- The accumulator after trip `k`, from the adjacency block `x0`, the projected features `x1` and the accumulator before. -/
def tripC (i : grid1.Coords) (x0 : Vec F S1024x4096 .f32) (x1 : Vec F S16384x32 .bf16) (k : Fin k1_t1_loop.trips) (acc : Vec F S1024x32 .f32) : Vec F S1024x32 .f32 :=
  View.canon [⟨rO1, k1_pay2 (View.ld x0 (rA1 k)) (View.ld x1 (rS1 i k)) (View.ld acc rO1)⟩]

/-- The accumulator after the first `n` trips. -/
def loopC (i : grid1.Coords) (x0 : Vec F S1024x4096 .f32) (x1 : Vec F S16384x32 .bf16) (acc : Vec F S1024x32 .f32) : ℕ → Vec F S1024x32 .f32
  | 0 => acc
  | n + 1 => if h : n < k1_t1_loop.trips then tripC i x0 x1 ⟨n, h⟩ (loopC i x0 x1 acc n) else loopC i x0 x1 acc n

theorem loopC_succ (i : grid1.Coords) (x0 : Vec F S1024x4096 .f32) (x1 : Vec F S16384x32 .bf16) (acc : Vec F S1024x32 .f32) (k : Fin k1_t1_loop.trips) :
    loopC i x0 x1 acc (k.val + 1) = tripC i x0 x1 k (loopC i x0 x1 acc k.val) := by
  rw [loopC]; exact dif_pos k.isLt

/-- What the body stores into the output block at the last column-block: the accumulator clamped below at zero. -/
def out1_2 (s : Vec F S1024x32 .f32) : Vec F S1024x32 .f32 :=
  View.canon [⟨rO1, k1_pay3 (View.ld s rO1)⟩]

/-! ## The counted loop read through its invariant -/

/-- One trip's pieces: a single store of the whole accumulator, of the trip's payload over the three loads. -/
theorem tripL_eq (𝒱 : Variants) (c : Dev nD) (bd : Option 𝒱.V) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole) (X2 : BufTy.Contents (Elt F) arg2.view.ty) (X3 : BufTy.Contents (Elt F) arg3.view.ty) (k : Fin k1_t1_loop.trips) (f : BufTy.Contents (Elt F) arg5.view.ty) :
    tripL_k1_t1 (F := F) 𝒱 c bd i arg2 harg2 arg3 harg3 arg4 harg4 arg5 harg5 X2 X3 k f
      = [⟨rO1, k1_pay2 (View.ld (arg2.view.read (Elt F) X2) (rA1 k)) (View.ld (arg3.view.read (Elt F) X3) (rS1 i k)) (View.ld (arg5.view.read (Elt F) f) rO1)⟩] := by
  unfold tripL_k1_t1 trip_k1_t1
  rfl

/-- After one trip's pieces the accumulator reads as the trip's closed form. -/
theorem trip_read (𝒱 : Variants) (c : Dev nD) (bd : Option 𝒱.V) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole) (X2 : BufTy.Contents (Elt F) arg2.view.ty) (X3 : BufTy.Contents (Elt F) arg3.view.ty) (k : Fin k1_t1_loop.trips) (f : BufTy.Contents (Elt F) arg5.view.ty) :
    arg5.view.read (Elt F) (arg5.view.writes (Elt F) f (tripL_k1_t1 (F := F) 𝒱 c bd i arg2 harg2 arg3 harg3 arg4 harg4 arg5 harg5 X2 X3 k f))
      = tripC i (arg2.view.read (Elt F) X2) (arg3.view.read (Elt F) X3) k (arg5.view.read (Elt F) f) := by
  rw [tripL_eq]
  exact View.read_writes_eq_canon _ _ _ (cover1 _)

/-- After the first `n` trips' pieces, written over the contents `G` at loop entry, the accumulator reads as the fold. -/
theorem loop_read (𝒱 : Variants) (c : Dev nD) (bd : Option 𝒱.V) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole) (X2 : BufTy.Contents (Elt F) arg2.view.ty) (X3 : BufTy.Contents (Elt F) arg3.view.ty) (G : BufTy.Contents (Elt F) arg5.view.ty) :
    ∀ n : ℕ, n ≤ k1_t1_loop.trips →
      arg5.view.read (Elt F) (arg5.view.writes (Elt F) G (pb_k1_t1 (F := F) 𝒱 c bd i arg2 harg2 arg3 harg3 arg4 harg4 arg5 harg5 X2 X3 G n))
        = loopC i (arg2.view.read (Elt F) X2) (arg3.view.read (Elt F) X3) (arg5.view.read (Elt F) G) n
  | 0, _ => by rw [pb_k1_t1.eq_1]; rfl
  | n + 1, hn => by
    have ih := loop_read 𝒱 c bd i arg2 harg2 arg3 harg3 arg4 harg4 arg5 harg5 X2 X3 G n (Nat.le_of_succ_le hn)
    have hs := pb_k1_t1_succ (F := F) 𝒱 c bd i arg2 harg2 arg3 harg3 arg4 harg4 arg5 harg5 X2 X3 G ⟨n, hn⟩
    rw [show (⟨n, hn⟩ : Fin k1_t1_loop.trips).val + 1 = n + 1 from rfl] at hs
    rw [hs, View.writes_append, trip_read, ih]
    exact (loopC_succ i _ _ _ ⟨n, hn⟩).symm

end Cert.KernelIdeal.Fr

end
-- ==== Proof.Frame1b.lean ====
/-
  The aggregation's launch, continued: the body's three control cases, the invariant that carries the accumulator
  from point to point, the proof data and the body obligation.

  A point's column-block k = t mod 4 decides the case: k = 0 clears the accumulator before the loop and stores no
  output; k = 1, 2 only run the loop; k = 3 runs the loop and stores the clamped accumulator as the output block.
  In each case the body leaves the two input buffers as found and the accumulator at the four-trip fold of what it
  started from. Between points the invariant holds the accumulator at `scrAt`: the fold of the point's trips over
  zeros (k = 0) or over what the point before left. The output's staging buffer is untouched where k < 3.
-/
import proofs.«107262_j54331336295083_2_alg».proof.Proof.Gen.KernelIdeal.Launch
import proofs.«107262_j54331336295083_2_alg».proof.Proof.Gen.KernelIdeal.Skeleton
import proofs.«107262_j54331336295083_2_alg».proof.Proof.Gen.KernelIdeal.Points
import proofs.«107262_j54331336295083_2_alg».proof.Proof.Frame1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, decided over the grid -/

/-- "The column-block is the first": the body clears the accumulator. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "The column-block is the last": the body stores the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output is idle, and not written back, off the last column-block. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body, case by case -/

set_option maxHeartbeats 2000000 in
/-- First column-block: the accumulator, whatever it held, is cleared and then folded over the four trips. -/
theorem sound_A (c : Dev nD) (E : Set ℕ) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole)
    (hc0 : cond1_0 i) (hc1 : ¬cond1_1 i)
    (x0 : Vec F S1024x4096 .f32) (x1 : Vec F S16384x32 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (loopC i x0 x1 zeroC k1_t1_loop.trips)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.writes_append]
  refine (loop_read Variants.none c none i arg2 harg2 arg3 harg3 arg4 harg4 arg5 harg5 f0 f1 _ _ le_rfl).trans ?_
  refine congrArg (fun z => loopC i _ _ z k1_t1_loop.trips) ?_
  sl_unfold_run_names
  exact View.read_writes_eq_canon _ _ _ (cover1 _)

set_option maxHeartbeats 2000000 in
/-- Middle column-blocks: the accumulator is folded over the four trips from what it held. -/
theorem sound_B (c : Dev nD) (E : Set ℕ) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : ¬cond1_1 i)
    (x0 : Vec F S1024x4096 .f32) (x1 : Vec F S16384x32 .bf16) (xs : Vec F S1024x32 .f32) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (loopC i x0 x1 xs k1_t1_loop.trips)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact loop_read Variants.none c none i arg2 harg2 arg3 harg3 arg4 harg4 arg5 harg5 f0 f1 fs _ le_rfl

set_option maxHeartbeats 2000000 in
/-- Last column-block: the accumulator is folded over the four trips, and the output block, whatever it held, is
    stored whole with the clamped accumulator. -/
theorem sound_C (c : Dev nD) (E : Set ℕ) (i : grid1.Coords) (arg2 : Memref sig .tc .vmem S1024x4096 .f32) (harg2 : arg2.IsWhole) (arg3 : Memref sig .tc .vmem S16384x32 .bf16) (harg3 : arg3.IsWhole) (arg4 : Memref sig .tc .vmem S1024x32 .f32) (harg4 : arg4.IsWhole) (arg5 : Memref sig .tc .vmem S1024x32 .f32) (harg5 : arg5.IsWhole)
    (hc0 : ¬cond1_0 i) (hc1 : cond1_1 i)
    (x0 : Vec F S1024x4096 .f32) (x1 : Vec F S16384x32 .bf16) (xs : Vec F S1024x32 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (out1_2 (loopC i x0 x1 xs k1_t1_loop.trips)) ∗ owns (c : Thread nD τ) arg5 fullShare (loopC i x0 x1 xs k1_t1_loop.trips)) -∗ K ⟨⟩))
      ⊢ wp frame (wpE (defs₀ (F := F)) Variants.none c none) E (cc1__gc_kernel i arg2 harg2 arg3 harg3 arg4 harg4 arg5 harg5) K := by
  simp only [cc1__gc_kernel_eq_skeleton]; unfold cc1__gc_kernel_skel
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    refine (View.read_writes_eq_canon _ _ _ (cover1 _)).trans ?_
    rw [out1_2, ← loop_read Variants.none c none i arg2 harg2 arg3 harg3 arg4 harg4 arg5 harg5 f0 f1 fs _ le_rfl]
    rfl
  iexists _; isplitr
  swap; · iexact HS
  ipureintro
  exact loop_read Variants.none c none i arg2 harg2 arg3 harg3 arg4 harg4 arg5 harg5 f0 f1 fs _ le_rfl

/-! ## The accumulator point by point, and the invariant -/

/-- The accumulator after the body at position `n`: the four-trip fold over zeros at a first column-block, over what
    position `n - 1` left otherwise. -/
def scrAt (c : Dev nD) : (n : ℕ) → n < cfg1.N → Vec F S1024x32 .f32
  | 0, hn => loopC (grid1.coords ⟨0, hn⟩) (iblk1 V c 0 ⟨0, hn⟩) (iblk1 V c 1 ⟨0, hn⟩) zeroC k1_t1_loop.trips
  | n + 1, hn => loopC (grid1.coords ⟨n + 1, hn⟩) (iblk1 V c 0 ⟨n + 1, hn⟩) (iblk1 V c 1 ⟨n + 1, hn⟩)
      (if (n + 1) % 4 = 0 then zeroC else scrAt c n (Nat.lt_of_succ_lt hn)) k1_t1_loop.trips

theorem scrAt_first (c : Dev nD) (t : Fin cfg1.N) (h0 : t.val % 4 = 0) :
    scrAt V c t.val t.isLt = loopC (grid1.coords t) (iblk1 V c 0 t) (iblk1 V c 1 t) zeroC k1_t1_loop.trips := by
  obtain ⟨n, hn⟩ := t
  cases n with
  | zero => rfl
  | succ n => rw [scrAt, if_pos h0]

theorem scrAt_later (c : Dev nD) (t : Fin cfg1.N) (h0 : ¬t.val % 4 = 0) :
    scrAt V c t.val t.isLt = loopC (grid1.coords t) (iblk1 V c 0 t) (iblk1 V c 1 t)
      (scrAt V c (t.val - 1) (Nat.lt_of_le_of_lt (Nat.sub_le _ _) t.isLt)) k1_t1_loop.trips := by
  obtain ⟨n, hn⟩ := t
  cases n with
  | zero => exact absurd (Nat.zero_mod _) h0
  | succ n => rw [scrAt, if_neg h0]; rfl

/-- The accumulator as the body's operand: the kernel's own whole scratch buffer. -/
abbrev scM1 : Memref sig .tc .vmem S1024x32 .f32 := Memref.whole cc1_scratch0

/-- The invariant's shape: the other launch's five staging buffers at anything, the accumulator as `S` says, the
    generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S) ∗ (∃ r, prngReg c r))

/-- What a launch hands a body that may use its scratch and need not describe it is that shape with the accumulator at anything. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; rfl

/-- The invariant before position `n`: before the first point the accumulator is at anything; afterwards at what the
    point before left. -/
def PhiS (c : Dev nD) : (n : ℕ) → n ≤ cfg1.N → sProp 𝕄
  | 0, _ => Pipeline.ΦA spec1 c
  | n + 1, hn => PhiWith c (owns (c : Thread nD τ) scM1 fullShare (scrAt V c n hn))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1 fullShare (scrAt V c n hn)) := rfl
theorem PhiS_pos (c : Dev nD) (n : ℕ) (h : n ≤ cfg1.N) (hz : n ≠ 0) :
    PhiS V c n h = PhiWith c (owns (c : Thread nD τ) scM1 fullShare (scrAt V c (n - 1) (by omega))) := by
  cases n with
  | zero => exact absurd rfl hz
  | succ n => rfl

/-! ## The proof data -/

/-- The launch's proof data on core `c`: the arrays as found; after the body each input's buffer at its block and the
    output's at the clamped accumulator (consulted only where the body stores it); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (scrAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (scrAt V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h3 : t.val % 4 = 3
  · -- the last column-block: the loop, then the output block
    have h0 : ¬t.val % 4 = 0 := by omega
    have hz : t.val ≠ 0 := by omega
    rw [show (dat1 V c).leavesExact 2 t = owns (c : Thread nD τ) (st1_2 t) fullShare ((dat1 V c).after 2 t) from by
      unfold Dat.leavesExact; rw [liveAt1_2 t ((hcond1_1 t).mpr h3)], after1_2]
    rw [scrAt_later V c t h0, PhiS_castSucc V c t, PhiS_pos V c _ _ hz]
    unfold PhiWith
    iintro ⟨⟨⟨Ha, Hb, Hc, Hd, He, HS⟩, Hg⟩, Ho, ⟨%d0, H0⟩, ⟨%d1, H1⟩, ⟨%d2, H2⟩⟩
    iapply (sound_C c Set.univ (grid1.coords t) _ _ _ _ _ _ _ _ (fun h => h0 ((hcond1_0 t).mp h)) ((hcond1_1 t).mpr h3) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Ha Hb Hc Hd He HS Hg]
    · isplitr [Hg]
      · isplitl [Ha]; · iexact Ha
        isplitl [Hb]; · iexact Hb
        isplitl [Hc]; · iexact Hc
        isplitl [Hd]; · iexact Hd
        isplitl [He]; · iexact He
        iexact HS
      iexact Hg
    isplitl [Ho]; · iexact Ho
    isplitl [H0]; · iexact H0
    isplitl [H1]; · iexact H1
    iexact H2
  · have hc1 : ¬cond1_1 (grid1.coords t) := fun h => h3 ((hcond1_1 t).mp h)
    rw [Dat.leavesExact_idle (dat1 V c) 2 t (idleAt1_2 t hc1) (noFlush1_2 t hc1)]
    by_cases h0 : t.val % 4 = 0
    · -- the first column-block: clear, then the loop
      rw [scrAt_first V c t h0]
      have hA : (dat1 V c).Φ t.castSucc ⊢ PhiWith c (iprop(∃ d, owns (c : Thread nD τ) scM1 fullShare d)) := by
        rw [PhiS_castSucc V c t]
        by_cases hz : t.val = 0
        · rw [PhiS_zero V c _ _ hz, PhiA1_eq]
        · rw [PhiS_pos V c _ _ hz]; unfold PhiWith
          iintro ⟨⟨Ha, Hb, Hc, Hd, He, HS⟩, Hg⟩
          isplitr [Hg]
          · isplitl [Ha]; · iexact Ha
            isplitl [Hb]; · iexact Hb
            isplitl [Hc]; · iexact Hc
            isplitl [Hd]; · iexact Hd
            isplitl [He]; · iexact He
            iexists _; iexact HS
          iexact Hg
      iintro ⟨HΦ, Ho, ⟨%d0, H0⟩, ⟨%d1, H1⟩, H2⟩
      ihave HΦ' := hA $$ HΦ
      unfold PhiWith
      icases HΦ' with ⟨⟨Ha, Hb, Hc, Hd, He, HS⟩, Hg⟩
      iapply (sound_A c Set.univ (grid1.coords t) _ _ _ _ _ _ _ _ ((hcond1_0 t).mpr h0) hc1 (iblk1 V c 0 t) (iblk1 V c 1 t) _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2
    · -- a middle column-block: the loop only
      have hz : t.val ≠ 0 := fun h => h0 (by rw [h])
      rw [scrAt_later V c t h0, PhiS_castSucc V c t, PhiS_pos V c _ _ hz]
      unfold PhiWith
      iintro ⟨⟨⟨Ha, Hb, Hc, Hd, He, HS⟩, Hg⟩, Ho, ⟨%d0, H0⟩, ⟨%d1, H1⟩, H2⟩
      iapply (sound_B c Set.univ (grid1.coords t) _ _ _ _ _ _ _ _ (fun h => h0 ((hcond1_0 t).mp h)) hc1 (iblk1 V c 0 t) (iblk1 V c 1 t) _ _)
      isplitl [H0]; · iexact H0
      isplitl [H1]; · iexact H1
      isplitl [HS]; · iexact HS
      iintro ⟨H0, H1, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          iexact HS
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After the last point the invariant gives it back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ hne, PhiA1_eq]
  unfold PhiWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.KernelIdeal.Fr

end
-- ==== Proof.Run.lean ====
/-
  The program's run: its two kernel launches in order, at any float instance.

  @main is the dense projection's launch, then the aggregation's. Between them the core's buffers hold: at the start
  the launch memory; after the first launch the same with the projected features' array at what its eight
  write-backs left; after the second the same with the result's array at what the sixteen write-backs of the last
  column-blocks left. Neither launch writes an argument array, so each ends as launched; and the result array ends
  at the second launch's write-backs folded over its proof data, which the value lemmas read index by index.
-/
import proofs.«107262_j54331336295083_2_alg».proof.Proof.Gen.KernelIdeal.Launch
import proofs.«107262_j54331336295083_2_alg».proof.Proof.Gen.KernelIdeal.Skeleton
import proofs.«107262_j54331336295083_2_alg».proof.Proof.Gen.KernelIdeal.Points
import proofs.«107262_j54331336295083_2_alg».proof.Proof.Frame0
import proofs.«107262_j54331336295083_2_alg».proof.Proof.Frame1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (what the first launch is entered from). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second launch: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched, and the arrays the second launch reads -/

/-- The features: staged by the first launch as an input, bypassed by the second. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- The weight: likewise. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- The adjacency matrix, as the second launch finds it: bypassed by the first. -/
theorem V1_main_arg1 (c : Dev nD) : V1 m ρ c main_arg1 = m ((c : Thread nD τ).loc main_arg1) :=
  (W1_of_ne m ρ c main_arg1 (by decide)).trans rfl
/-- The adjacency matrix: staged by the second launch as an input. -/
theorem W2_main_arg1 (c : Dev nD) : W2 m ρ c (Proc.devRef .tc main_arg1) = m ((c : Thread nD τ).loc main_arg1) :=
  (W2_arr m ρ c 0).trans ((((dat1 (V1 m ρ) c).arrAt_in 0 rfl _).trans (A_eq1 (V1 m ρ) c 0)).trans (V1_main_arg1 m ρ c))
/-- The projected features, as the second launch finds them: what the first launch's write-backs left. -/
theorem V1_main_v0 (c : Dev nD) : V1 m ρ c main_v0 = (dat0 (V0 m ρ) c).arrAt 2 cfg0.N := W1_arr m ρ c 2
/-- The features and the weight as the first launch finds them. -/
theorem V0_main_arg0 (c : Dev nD) : V0 m ρ c main_arg0 = m ((c : Thread nD τ).loc main_arg0) := rfl
theorem V0_main_arg2 (c : Dev nD) : V0 m ρ c main_arg2 = m ((c : Thread nD τ).loc main_arg2) := rfl
/-- The result: what the second launch's write-backs left. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The two launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]; refine (hout1 (V1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    in every final state the result array holds the second launch's write-backs folded over its proof data, and the
    three argument arrays hold their launch contents. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- THE FRAME: the run, read at the argument arrays only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Fr

end
-- ==== Proof.LibBlockSumGen.lean ====
/-
  A sum over n = K · B indices is the sum, over the K consecutive blocks of B indices taken in order from zero,
  of the sums inside each block — in any commutative additive monoid, for any K and B. (A contraction that a
  kernel accumulates block by block over a grid axis equals the whole contraction.)
-/
import Mathlib.Algebra.BigOperators.Fin
import Mathlib.Logic.Equiv.Fin.Basic

open scoped BigOperators

namespace Cert.LibBlockSumGen

/-- Index `l` of block `k` is below `K · B`. -/
theorem block_index_lt {K B : ℕ} (k : Fin K) (l : Fin B) : B * k.val + l.val < K * B := by
  have hk := k.isLt
  have hl := l.isLt
  calc B * k.val + l.val < B * k.val + B := by omega
    _ = B * (k.val + 1) := (Nat.mul_succ _ _).symm
    _ ≤ B * K := Nat.mul_le_mul_left _ hk
    _ = K * B := Nat.mul_comm _ _

/-- A sum over `n = K · B` indices as `K` block sums of `B` terms: block `k` holds the indices `B·k, …, B·k + B − 1`. -/
theorem sum_blocks {M : Type*} [AddCommMonoid M] {n K B : ℕ} (h : n = K * B) (f : Fin n → M) :
    ∑ p : Fin n, f p = ∑ k : Fin K, ∑ l : Fin B, f ⟨B * k.val + l.val, h ▸ block_index_lt k l⟩ := by
  subst h
  rw [← Fintype.sum_prod_type' (fun (k : Fin K) (l : Fin B) => f ⟨B * k.val + l.val, block_index_lt k l⟩)]
  refine Fintype.sum_equiv (finProdFinEquiv (m := K) (n := B)).symm _ _ (fun p => ?_)
  congr 1
  apply Fin.ext
  simp only [finProdFinEquiv, Equiv.coe_fn_symm_mk, Fin.coe_divNat, Fin.coe_modNat]
  exact (Nat.div_add_mod p.val B).symm

end Cert.LibBlockSumGen
-- ==== Proof.LibBlockRuns.lean ====
/-
  Accumulating a blocked sum. A sum over n = K · B indices, cut into K consecutive blocks of B indices, can be
  accumulated block by block: `block K B h f j` is the sum of block j (zero past the last block), and the blocks
  `0, …, K − 1` accumulated in order reach the whole sum — in any commutative additive monoid, for any K and B.
  (A running total that adds one block's sum per step holds, after step j, the sum of blocks `0 … j`, and after the
  last step the whole sum.)
-/
import proofs.«107262_j54331336295083_2_alg».proof.Proof.LibBlockSumGen
import Mathlib.Algebra.BigOperators.Fin
import Mathlib.Algebra.BigOperators.Intervals

open scoped BigOperators

namespace Cert.LibBlockRuns

open Cert.LibBlockSumGen

/-- Block `j` of a sum over `n = K · B` indices: the sum of the `B` terms at the indices `B·j, …, B·j + B − 1`, and zero
    when `j` is past the last block. -/
def block {M : Type*} [AddCommMonoid M] {n : ℕ} (K B : ℕ) (h : n = K * B) (f : Fin n → M) (j : ℕ) : M :=
  if hj : j < K then ∑ l : Fin B, f ⟨B * j + l.val, h ▸ block_index_lt (⟨j, hj⟩ : Fin K) l⟩ else 0

/-- A block inside the range is its `B` terms. -/
theorem block_of_lt {M : Type*} [AddCommMonoid M] {n : ℕ} (K B : ℕ) (h : n = K * B) (f : Fin n → M) (j : ℕ) (hj : j < K) :
    block K B h f j = ∑ l : Fin B, f ⟨B * j + l.val, h ▸ block_index_lt (⟨j, hj⟩ : Fin K) l⟩ :=
  dif_pos hj

/-- The blocks `0, …, j` accumulated are the blocks `0, …, j − 1` accumulated, plus block `j`. -/
theorem sum_range_succ_block {M : Type*} [AddCommMonoid M] {n : ℕ} (K B : ℕ) (h : n = K * B) (f : Fin n → M) (j : ℕ) :
    ∑ i ∈ Finset.range (j + 1), block K B h f i = ∑ i ∈ Finset.range j, block K B h f i + block K B h f j :=
  Finset.sum_range_succ _ _

/-- All `K` blocks accumulated are the whole sum. -/
theorem sum_range_block {M : Type*} [AddCommMonoid M] {n K B : ℕ} (h : n = K * B) (f : Fin n → M) :
    ∑ j ∈ Finset.range K, block K B h f j = ∑ p : Fin n, f p := by
  rw [sum_blocks h f, Finset.sum_range]
  exact Finset.sum_congr rfl fun k _ => dif_pos k.isLt

end Cert.LibBlockRuns
-- ==== Proof.Spec.lean ====
/-
  The graph-convolution layer as one function of its three argument arrays, on the extended reals.

  With x : [16384, 128], adj : [16384, 16384], w : [128, 32]:
    support[k, c] = Σ_j x[k, j] · w[j, c]                      (the dense projection)
    agg[r, c]     = Σ_k adj[r, k] · support[k, c]              (the neighbourhood aggregation)
    out[r, c]     = max (agg[r, c]) 0                          (the rectifier)
  The aggregation's 16384 terms fall into 16 consecutive blocks of 1024; a running total that adds one block at a
  time reaches the whole sum, since addition on the extended reals is commutative and associative.
-/
import Idealize.ShloMosaic.PureOps.Ideal
import Idealize.ShloMosaic.Lib.ValueIdx
import proofs.«107262_j54331336295083_2_alg».proof.Proof.LibBlockRuns

noncomputable section

open scoped BigOperators

namespace Cert.GraphConv

open Idealize.ShloMosaic Idealize.ShloMosaic.ValueIdx

/-- The node features' shape. -/
abbrev SIn : Shape := ⟨2, ![16384, 128]⟩
/-- The adjacency matrix's shape. -/
abbrev SAdj : Shape := ⟨2, ![16384, 16384]⟩
/-- The weight's shape. -/
abbrev SW : Shape := ⟨2, ![128, 32]⟩
/-- The result's shape (and the projected features'). -/
abbrev SOut : Shape := ⟨2, ![16384, 32]⟩

/-- The projected features: row `k` of `x` against column `c` of `w`. -/
def support (x : SIn.Idx → EReal) (w : SW.Idx → EReal) (k : Fin 16384) (c : Fin 32) : EReal :=
  ∑ j : Fin 128, x (ix2 k j) * w (ix2 j c)

/-- One term of the aggregation at (r, c): neighbour `k`'s weight times its projected feature. -/
def term (x : SIn.Idx → EReal) (adj : SAdj.Idx → EReal) (w : SW.Idx → EReal) (r : Fin 16384) (c : Fin 32) (k : Fin 16384) : EReal :=
  adj (ix2 r k) * support x w k c

/-- The aggregation at (r, c): the sum over all 16384 neighbours. -/
def agg (x : SIn.Idx → EReal) (adj : SAdj.Idx → EReal) (w : SW.Idx → EReal) (r : Fin 16384) (c : Fin 32) : EReal :=
  ∑ k : Fin 16384, term x adj w r c k

/-- The zero the rectifier compares against, as the single-precision word both programs spell it with. -/
abbrev zeroWord : EReal := FloatOps.ofBits (F := Ideal) .f32 0x00000000#32

/-- The layer's result at (r, c). -/
def outAt (x : SIn.Idx → EReal) (adj : SAdj.Idx → EReal) (w : SW.Idx → EReal) (r : Fin 16384) (c : Fin 32) : EReal :=
  FloatOps.maximumf (F := Ideal) (φ := .f32) (agg x adj w r c) zeroWord

/-- The layer's result as an array. -/
def out (x : SIn.Idx → EReal) (adj : SAdj.Idx → EReal) (w : SW.Idx → EReal) : SOut.Idx → EReal :=
  fun i => outAt x adj w (i 0) (i 1)

theorem out_ix2 (x : SIn.Idx → EReal) (adj : SAdj.Idx → EReal) (w : SW.Idx → EReal) (r : Fin 16384) (c : Fin 32) :
    out x adj w (ix2 r c) = outAt x adj w r c := rfl

/-- Block `b` of the aggregation at (r, c): the 1024 neighbours `1024·b … 1024·b + 1023` (zero past the sixteenth block). -/
def aggBlock (x : SIn.Idx → EReal) (adj : SAdj.Idx → EReal) (w : SW.Idx → EReal) (r : Fin 16384) (c : Fin 32) (b : ℕ) : EReal :=
  Cert.LibBlockRuns.block 16 1024 rfl (term x adj w r c) b

/-- The sixteen blocks accumulated in order are the whole aggregation. -/
theorem agg_eq_blocks (x : SIn.Idx → EReal) (adj : SAdj.Idx → EReal) (w : SW.Idx → EReal) (r : Fin 16384) (c : Fin 32) :
    ∑ b ∈ Finset.range 16, aggBlock x adj w r c b = agg x adj w r c :=
  Cert.LibBlockRuns.sum_range_block rfl _

/-- One more block on the running total. -/
theorem aggBlocks_succ (x : SIn.Idx → EReal) (adj : SAdj.Idx → EReal) (w : SW.Idx → EReal) (r : Fin 16384) (c : Fin 32) (n : ℕ) :
    ∑ b ∈ Finset.range (n + 1), aggBlock x adj w r c b = ∑ b ∈ Finset.range n, aggBlock x adj w r c b + aggBlock x adj w r c n :=
  Finset.sum_range_succ _ _

/-- A block inside the range is its 1024 terms. -/
theorem aggBlock_of_lt (x : SIn.Idx → EReal) (adj : SAdj.Idx → EReal) (w : SW.Idx → EReal) (r : Fin 16384) (c : Fin 32) (b : ℕ) (hb : b < 16) :
    aggBlock x adj w r c b = ∑ l : Fin 1024, term x adj w r c ⟨1024 * b + l.val, by have := l.isLt; omega⟩ :=
  Cert.LibBlockRuns.block_of_lt 16 1024 rfl _ b hb

end Cert.GraphConv

end
-- ==== Proof.PayloadsIdeal.lean ====
/-
  The kernel's four payload terms read at one index, at the ideal values.

  At the ideal values floats are extended reals and every operation is exact: a change of float format is the
  identity, a matrix product into the zero accumulator is the plain sum over the contraction coordinate of the
  operands' products, and a cast to the same shape is the identity.  So, at the index (p, q):
    the dense payload is            Σ_j x (p, j) · w (j, q);
    the accumulator's start is      0;
    one accumulation step is        acc (p, q) + Σ_l a (p, l) · s (l, q);
    the rectifier is                the maximum of v (p, q) and the zero word.
-/
import proofs.«107262_j54331336295083_2_alg».proof.Proof.Gen.KernelIdeal.Skeleton
import proofs.«107262_j54331336295083_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.PayVal

open Idealize.ShloMosaic Idealize.ShloMosaic.ValueIdx Cert.KernelIdeal Cert.KernelIdeal.Gen

/-! ## The dense product's operand indices -/

/-- The left operand's row is the output's row. -/
theorem dense_lhs_0 (i : S2048x32.Idx) (k : dot_S2048x128_S128x32_S2048x32_1_0_0_1_n_n.contr.Idx) :
    (dot_S2048x128_S128x32_S2048x32_1_0_0_1_n_n.lhsIdx i k 0).val = (i 0).val := by
  unfold DotDims.lhsIdx
  rw [dif_neg (show ¬(0 : Fin S2048x128.rank) ∈ dot_S2048x128_S128x32_S2048x32_1_0_0_1_n_n.lhsBatch by decide),
    dif_pos (show (0 : Fin S2048x128.rank) ∈ dot_S2048x128_S128x32_S2048x32_1_0_0_1_n_n.lhsNonContracting by decide)]
  rfl

/-- The left operand's column is the contraction coordinate. -/
theorem dense_lhs_1 (i : S2048x32.Idx) (k : dot_S2048x128_S128x32_S2048x32_1_0_0_1_n_n.contr.Idx) :
    (dot_S2048x128_S128x32_S2048x32_1_0_0_1_n_n.lhsIdx i k 1).val = (k ⟨0, by decide⟩).val :=
  dot_S2048x128_S128x32_S2048x32_1_0_0_1_n_n.lhsIdx_val_of_single rfl i k

/-- The right operand's row is the contraction coordinate. -/
theorem dense_rhs_0 (i : S2048x32.Idx) (k : dot_S2048x128_S128x32_S2048x32_1_0_0_1_n_n.contr.Idx) :
    (dot_S2048x128_S128x32_S2048x32_1_0_0_1_n_n.rhsIdx i k 0).val = (k ⟨0, by decide⟩).val :=
  dot_S2048x128_S128x32_S2048x32_1_0_0_1_n_n.rhsIdx_val_of_single rfl i k

/-- The right operand's column is the output's column. -/
theorem dense_rhs_1 (i : S2048x32.Idx) (k : dot_S2048x128_S128x32_S2048x32_1_0_0_1_n_n.contr.Idx) :
    (dot_S2048x128_S128x32_S2048x32_1_0_0_1_n_n.rhsIdx i k 1).val = (i 1).val := by
  unfold DotDims.rhsIdx
  rw [dif_neg (show ¬(1 : Fin S128x32.rank) ∈ dot_S2048x128_S128x32_S2048x32_1_0_0_1_n_n.rhsBatch by decide),
    dif_pos (show (1 : Fin S128x32.rank) ∈ dot_S2048x128_S128x32_S2048x32_1_0_0_1_n_n.rhsNonContracting by decide)]
  rfl

/-- The dense product into the zero accumulator, read at (p, q): the sum over j of a (p, j) · b (j, q). -/
theorem dense_dot_apply (a : FVec Ideal S2048x128 .bf16) (b : FVec Ideal S128x32 .bf16) (p : Fin 2048) (q : Fin 32) :
    FloatOps.matmul dot_S2048x128_S128x32_S2048x32_1_0_0_1_n_n none a b (constant (F := Ideal) S2048x32 .f32 0x00000000#32) (ix2 p q)
      = ∑ j : Fin 128, a (ix2 p j) * b (ix2 j q) := by
  rw [Ideal.matmul_constant_zero_apply,
    ← Equiv.sum_comp (contrEquiv1 dot_S2048x128_S128x32_S2048x32_1_0_0_1_n_n 128 rfl rfl).symm]
  refine Finset.sum_congr rfl fun k _ => ?_
  have hk := contrEquiv1_symm_val dot_S2048x128_S128x32_S2048x32_1_0_0_1_n_n 128 rfl rfl k
  have el : dot_S2048x128_S128x32_S2048x32_1_0_0_1_n_n.lhsIdx (ix2 p q)
      ((contrEquiv1 dot_S2048x128_S128x32_S2048x32_1_0_0_1_n_n 128 rfl rfl).symm k) = ix2 p k :=
    funext fun c => Fin.ext (by
      match c with
      | ⟨0, _⟩ => exact dense_lhs_0 _ _
      | ⟨1, _⟩ => exact (dense_lhs_1 _ _).trans hk)
  have er : dot_S2048x128_S128x32_S2048x32_1_0_0_1_n_n.rhsIdx (ix2 p q)
      ((contrEquiv1 dot_S2048x128_S128x32_S2048x32_1_0_0_1_n_n 128 rfl rfl).symm k) = ix2 k q :=
    funext fun c => Fin.ext (by
      match c with
      | ⟨0, _⟩ => exact (dense_rhs_0 _ _).trans hk
      | ⟨1, _⟩ => exact dense_rhs_1 _ _)
  rw [el, er]

/-- The dense payload at (p, q): the projected feature Σ_j x (p, j) · w (j, q). -/
theorem pay_dense (x : Vec Ideal S2048x128 .f32) (w : Vec Ideal S128x32 .f32) (p : Fin 2048) (q : Fin 32) :
    k0_pay1 (F := Ideal) x w (ix2 p q) = ∑ j : Fin 128, x (ix2 p j) * w (ix2 j q) := by
  unfold k0_pay1
  exact dense_dot_apply _ _ p q

/-! ## The aggregation product's operand indices -/

/-- The left operand's row is the output's row. -/
theorem agg_lhs_0 (i : S1024x32.Idx) (k : dot_S1024x1024_S1024x32_S1024x32_1_0_0_1_n_n.contr.Idx) :
    (dot_S1024x1024_S1024x32_S1024x32_1_0_0_1_n_n.lhsIdx i k 0).val = (i 0).val := by
  unfold DotDims.lhsIdx
  rw [dif_neg (show ¬(0 : Fin S1024x1024.rank) ∈ dot_S1024x1024_S1024x32_S1024x32_1_0_0_1_n_n.lhsBatch by decide),
    dif_pos (show (0 : Fin S1024x1024.rank) ∈ dot_S1024x1024_S1024x32_S1024x32_1_0_0_1_n_n.lhsNonContracting by decide)]
  rfl

/-- The left operand's column is the contraction coordinate. -/
theorem agg_lhs_1 (i : S1024x32.Idx) (k : dot_S1024x1024_S1024x32_S1024x32_1_0_0_1_n_n.contr.Idx) :
    (dot_S1024x1024_S1024x32_S1024x32_1_0_0_1_n_n.lhsIdx i k 1).val = (k ⟨0, by decide⟩).val :=
  dot_S1024x1024_S1024x32_S1024x32_1_0_0_1_n_n.lhsIdx_val_of_single rfl i k

/-- The right operand's row is the contraction coordinate. -/
theorem agg_rhs_0 (i : S1024x32.Idx) (k : dot_S1024x1024_S1024x32_S1024x32_1_0_0_1_n_n.contr.Idx) :
    (dot_S1024x1024_S1024x32_S1024x32_1_0_0_1_n_n.rhsIdx i k 0).val = (k ⟨0, by decide⟩).val :=
  dot_S1024x1024_S1024x32_S1024x32_1_0_0_1_n_n.rhsIdx_val_of_single rfl i k

/-- The right operand's column is the output's column. -/
theorem agg_rhs_1 (i : S1024x32.Idx) (k : dot_S1024x1024_S1024x32_S1024x32_1_0_0_1_n_n.contr.Idx) :
    (dot_S1024x1024_S1024x32_S1024x32_1_0_0_1_n_n.rhsIdx i k 1).val = (i 1).val := by
  unfold DotDims.rhsIdx
  rw [dif_neg (show ¬(1 : Fin S1024x32.rank) ∈ dot_S1024x1024_S1024x32_S1024x32_1_0_0_1_n_n.rhsBatch by decide),
    dif_pos (show (1 : Fin S1024x32.rank) ∈ dot_S1024x1024_S1024x32_S1024x32_1_0_0_1_n_n.rhsNonContracting by decide)]
  rfl

/-- The aggregation product into the zero accumulator, read at (p, q): the sum over l of a (p, l) · b (l, q). -/
theorem agg_dot_apply (a : FVec Ideal S1024x1024 .bf16) (b : FVec Ideal S1024x32 .bf16) (p : Fin 1024) (q : Fin 32) :
    FloatOps.matmul dot_S1024x1024_S1024x32_S1024x32_1_0_0_1_n_n none a b (constant (F := Ideal) S1024x32 .f32 0x00000000#32) (ix2 p q)
      = ∑ l : Fin 1024, a (ix2 p l) * b (ix2 l q) := by
  rw [Ideal.matmul_constant_zero_apply,
    ← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 p q)
      ((contrEquiv1 dot_S1024x1024_S1024x32_S1024x32_1_0_0_1_n_n 1024 rfl rfl).symm k) = ix2 p k :=
    funext fun c => Fin.ext (by
      match c with
      | ⟨0, _⟩ => exact agg_lhs_0 _ _
      | ⟨1, _⟩ => exact (agg_lhs_1 _ _).trans hk)
  have er : dot_S1024x1024_S1024x32_S1024x32_1_0_0_1_n_n.rhsIdx (ix2 p q)
      ((contrEquiv1 dot_S1024x1024_S1024x32_S1024x32_1_0_0_1_n_n 1024 rfl rfl).symm k) = ix2 k q :=
    funext fun c => Fin.ext (by
      match c with
      | ⟨0, _⟩ => exact (agg_rhs_0 _ _).trans hk
      | ⟨1, _⟩ => exact agg_rhs_1 _ _)
  rw [el, er]

/-! ## The accumulator's payloads -/

/-- The accumulator's start at (p, q): the zero word, which is 0. -/
theorem pay_zero (p : Fin 1024) (q : Fin 32) : k1_pay1 (F := Ideal) (ix2 p q) = 0 := by
  unfold k1_pay1
  rw [shapeCast_self]
  exact Ideal.ofBits_zero_f32

/-- One accumulation step at (p, q): the running total there plus Σ_l a (p, l) · s (l, q). -/
theorem pay_acc (a : Vec Ideal S1024x1024 .f32) (s : Vec Ideal S1024x32 .bf16) (acc : Vec Ideal S1024x32 .f32)
    (p : Fin 1024) (q : Fin 32) :
    k1_pay2 (F := Ideal) a s acc (ix2 p q) = acc (ix2 p q) + ∑ l : Fin 1024, a (ix2 p l) * s (ix2 l q) := by
  unfold k1_pay2
  rw [shapeCast_self, shapeCast_self]
  exact congrArg (acc (ix2 p q) + ·) (agg_dot_apply _ _ p q)

/-- The rectifier at (p, q): the maximum of v (p, q) and the zero word. -/
theorem pay_relu (v : Vec Ideal S1024x32 .f32) (p : Fin 1024) (q : Fin 32) :
    k1_pay3 (F := Ideal) v (ix2 p q)
      = FloatOps.maximumf (F := Ideal) (φ := .f32) (v (ix2 p q)) Cert.GraphConv.zeroWord := rfl

end Cert.KernelIdeal.PayVal

end
-- ==== Proof.Value0.lean ====
/-
  The dense projection's launch as one function of the argument arrays, at the ideal values.

  Point t of the 8-point grid writes back rows 2048·t … 2048·t + 2047 of the projected features; what it writes
  at row p, column q of that block is Σ_j x (2048·t + p, j) · w (j, q): the features' block is rows 2048·t … of
  x, the weight's block is all of w.  So each written block is the same block of the one array
  G0 x w (k, c) = Σ_j x (k, j) · w (j, c), and the eight blocks tile the 16384 rows (row r lies in block
  r / 2048): after the launch the projected features' array is G0 of the two arguments.
-/
import proofs.«107262_j54331336295083_2_alg».proof.Proof.Frame0
import proofs.«107262_j54331336295083_2_alg».proof.Proof.PayloadsIdeal
import proofs.«107262_j54331336295083_2_alg».proof.Proof.Spec
import Idealize.ShloMosaic.Lib.Pipeline.Value

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The projected features as one function of the two argument arrays. -/
def G0 (x : Cert.GraphConv.SIn.Idx → EReal) (w : Cert.GraphConv.SW.Idx → EReal) : Cert.GraphConv.SOut.Idx → EReal :=
  fun i => Cert.GraphConv.support x w (i 0) (i 1)

theorem G0_ix2 (x : Cert.GraphConv.SIn.Idx → EReal) (w : Cert.GraphConv.SW.Idx → EReal) (k : Fin 16384) (c' : Fin 32) :
    G0 x w (ix2 k c') = Cert.GraphConv.support x w k c' := rfl

/-- The body's rectangles start at the origin. -/
theorem origin_eq : (![0, 0] : Fin 2 → Nat) = fun _ => 0 := funext fun a => by fin_cases a <;> rfl

/-- The printed index maps over the grid: point t takes the features' and the result's block of rows t, and the
    whole weight. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Two arrays read at equal indices have equal products. -/
theorem mul_read_congr {A B : Type} (f : A → EReal) (g : B → EReal) {a a' : A} {b b' : B} (ha : a = a') (hb : b = b') :
    f a * g b = f a' * g b' := by rw [ha, hb]

/-- What point t writes back is block t of G0 of the argument arrays. -/
theorem flushed_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero origin_eq]
  simp only [View.ld_unit_zero (S := S2048x128) origin_eq, View.ld_unit_zero (S := S128x32) origin_eq]
  obtain ⟨e0, e1, e2, e3, e4, e5⟩ := index_facts t
  have ht : t.val < 8 := Nat.lt_of_lt_of_eq t.isLt N_0
  funext j
  obtain ⟨p, q, rfl⟩ : ∃ (p : Fin 2048) (q : Fin 32), j = ix2 p q := ⟨j 0, j 1, eq_ix2 j⟩
  have hp : p.val < 2048 := p.isLt
  show k0_pay1 (F := Ideal) (iblk0 V c 0 t) (iblk0 V c 1 t) (ix2 p q)
      = G0 (V c main_arg0) (V c main_arg2) (((cfg0.win 2).blk t).view.emb (ix2 p q))
  have hO : ((cfg0.win 2).blk t).view.emb (ix2 p q)
      = ix2 (⟨2048 * t.val + p.val, by omega⟩ : Fin 16384) q := by
    funext a; apply Fin.ext
    match a with
    | ⟨0, _⟩ => show win0_2.index t (0 : Fin 2) * 2048 + 1 * p.val = 2048 * t.val + p.val; omega
    | ⟨1, _⟩ => show win0_2.index t (1 : Fin 2) * 32 + 1 * q.val = q.val; omega
  rw [hO, G0_ix2, PayVal.pay_dense]
  unfold Cert.GraphConv.support
  refine Finset.sum_congr rfl fun j _ => ?_
  have hX : ((cfg0.win 0).blk t).view.emb (ix2 p j) = ix2 (⟨2048 * t.val + p.val, by omega⟩ : Fin 16384) j := by
    funext a; apply Fin.ext
    match a with
    | ⟨0, _⟩ => show win0_0.index t (0 : Fin 2) * 2048 + 1 * p.val = 2048 * t.val + p.val; omega
    | ⟨1, _⟩ => show win0_0.index t (1 : Fin 2) * 128 + 1 * j.val = j.val; omega
  have hW : ((cfg0.win 1).blk t).view.emb (ix2 j q) = ix2 j q := by
    funext a; apply Fin.ext
    match a with
    | ⟨0, _⟩ => show win0_1.index t (0 : Fin 2) * 128 + 1 * j.val = j.val; omega
    | ⟨1, _⟩ => show win0_1.index t (1 : Fin 2) * 32 + 1 * q.val = q.val; omega
  exact mul_read_congr (V c main_arg0) (V c main_arg2) hX hW

/-- An index of the array lies in point t's block exactly when each coordinate lies in the block's range on its axis. -/
theorem mem_blk (t : Fin cfg0.N) (i : S16384x32.Idx) :
    i ∈ ((cfg0.win 2).blk t).view.set ↔ ∀ a : Fin 2, win0_2.index t a * S2048x32.size a ≤ (i a).val
      ∧ (i a).val < win0_2.index t a * S2048x32.size a + S2048x32.size a := by
  show i ∈ ((View.whole main_v0).slice (win0_2.rect t)).set ↔ _
  rw [View.set_slice_whole, Rect.mem_set_unit]
  exact Iff.rfl

/-- The eight blocks tile the array: row r lies in the block of point r / 2048, and every point writes back. -/
theorem cover (i : S16384x32.Idx) :
    ∃ t : Fin cfg0.N, (cfg0.win 2).flush t = true ∧ i ∈ ((cfg0.win 2).blk t).view.set := by
  have hi0 : (i 0).val < 16384 := (i 0).isLt
  have hi1 : (i 1).val < 32 := (i 1).isLt
  have hlt : (i 0).val / 2048 < cfg0.N := by
    show (i 0).val / 2048 < grid0.N
    rw [N_0]; omega
  obtain ⟨-, -, -, -, e4, e5⟩ := index_facts ⟨(i 0).val / 2048, hlt⟩
  refine ⟨⟨(i 0).val / 2048, hlt⟩, flush0_2 _, ?_⟩
  rw [mem_blk]
  intro a
  match a with
  | ⟨0, _⟩ =>
    show win0_2.index ⟨(i 0).val / 2048, hlt⟩ (0 : Fin 2) * 2048 ≤ (i 0).val
      ∧ (i 0).val < win0_2.index ⟨(i 0).val / 2048, hlt⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, hlt⟩ (1 : Fin 2) * 32 ≤ (i 1).val
      ∧ (i 1).val < win0_2.index ⟨(i 0).val / 2048, hlt⟩ (1 : Fin 2) * 32 + 32
    rw [e5]; omega

/-- After the launch the projected features' array is G0 of the features and the weight as the launch found them. -/
theorem final0 (c : Dev nD) : (dat0 V c).arrAt 2 cfg0.N = G0 (V c main_arg0) (V c main_arg2) :=
  (dat0 V c).arrAt_eq_of_cover 2 _ (fun t _ => flushed_eq V c t) cover

end Cert.KernelIdeal.Val

end
-- ==== Proof.Value1a.lean ====
/-
  What the aggregation's launch leaves in the result array, at the ideal values.

  At the ideal values one trip of the body's loop adds to the accumulator at (p, q) the 1024 products of a slice of
  the adjacency block's row p with a column of the projected features; over a point's four trips, and over the four
  points of a row-block, these are the sixteen consecutive blocks of 1024 terms of the aggregation of the row
  1024·i + p, accumulated in order from zero. So after point 4·i + k the accumulator holds the blocks 0 … 4·k + 3
  of that row's aggregation, and at k = 3 all sixteen — the whole sum — which the body clamps below at zero and
  stores. The sixteen written-back blocks tile the result array.
-/
import proofs.«107262_j54331336295083_2_alg».proof.Proof.Frame1b
import proofs.«107262_j54331336295083_2_alg».proof.Proof.PayloadsIdeal
import proofs.«107262_j54331336295083_2_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr
open Cert.GraphConv (SIn SAdj SW SOut zeroWord)

/-! ## The aggregation over any array of projected features -/

/-- One term of the aggregation at (r, c'): neighbour `k`'s weight times its projected feature in `s`. -/
def termA (adj : SAdj.Idx → EReal) (s : SOut.Idx → EReal) (r : Fin 16384) (c' : Fin 32) (k : Fin 16384) : EReal :=
  adj (ix2 r k) * s (ix2 k c')

/-- Block `b` of that aggregation: neighbours 1024·b … 1024·b + 1023 (zero past the sixteenth block). -/
def blkA (adj : SAdj.Idx → EReal) (s : SOut.Idx → EReal) (r : Fin 16384) (c' : Fin 32) (b : ℕ) : EReal :=
  Cert.LibBlockRuns.block 16 1024 rfl (termA adj s r c') b

/-- The result array: the sixteen blocks accumulated in order, clamped below at zero. -/
def G1 (adj : SAdj.Idx → EReal) (s : SOut.Idx → EReal) : SOut.Idx → EReal :=
  fun i => FloatOps.maximumf (F := Ideal) (φ := .f32) (∑ b ∈ Finset.range 16, blkA adj s (i 0) (i 1) b) zeroWord

theorem G1_ix2 (adj : SAdj.Idx → EReal) (s : SOut.Idx → EReal) (r : Fin 16384) (c' : Fin 32) :
    G1 adj s (ix2 r c') = FloatOps.maximumf (F := Ideal) (φ := .f32) (∑ b ∈ Finset.range 16, blkA adj s r c' b) zeroWord := rfl

/-! ## One trip, and the loop, read at an index -/

theorem hz : (![0, 0] : Fin 2 → Nat) = fun _ => 0 := funext fun a => by fin_cases a <;> rfl

theorem trips_lt (k : Fin k1_t1_loop.trips) : k.val < 4 := Nat.lt_of_lt_of_le k.isLt k1_t1_abs.2.1

/-- Trip `k` adds, at (p, q), the products of the slice's row p with the matching rows' column q. -/
theorem tripC_apply (i : grid1.Coords) (x0 : Vec Ideal S1024x4096 .f32) (x1 : Vec Ideal S16384x32 .bf16) (k : Fin k1_t1_loop.trips)
    (acc : Vec Ideal S1024x32 .f32) (p : Fin 1024) (q : Fin 32) :
    tripC i x0 x1 k acc (ix2 p q) = acc (ix2 p q) + ∑ l : Fin 1024, x0 ((rA1 k).idx (ix2 p l)) * x1 ((rS1 i k).idx (ix2 l q)) := by
  unfold tripC
  rw [View.canon_unit_zero hz]
  refine (PayVal.pay_acc _ _ _ p q).trans ?_
  rw [View.ld_unit_zero (S := S1024x32) hz]

/-- What trip `k` adds at (p, q), for a natural number `k` (zero past the last trip). -/
def tripSum (i : grid1.Coords) (x0 : Vec Ideal S1024x4096 .f32) (x1 : Vec Ideal S16384x32 .bf16) (p : Fin 1024) (q : Fin 32) (k : ℕ) : EReal :=
  if h : k < k1_t1_loop.trips then ∑ l : Fin 1024, x0 ((rA1 ⟨k, h⟩).idx (ix2 p l)) * x1 ((rS1 i ⟨k, h⟩).idx (ix2 l q)) else 0

/-- After `n` trips the accumulator at (p, q) is what it started from plus the trips' sums, in order. -/
theorem loopC_apply (i : grid1.Coords) (x0 : Vec Ideal S1024x4096 .f32) (x1 : Vec Ideal S16384x32 .bf16) (acc : Vec Ideal S1024x32 .f32)
    (p : Fin 1024) (q : Fin 32) : ∀ n : ℕ, n ≤ k1_t1_loop.trips →
      loopC i x0 x1 acc n (ix2 p q) = acc (ix2 p q) + ∑ k ∈ Finset.range n, tripSum i x0 x1 p q k
  | 0, _ => by
    show acc (ix2 p q) = acc (ix2 p q) + ∑ k ∈ Finset.range 0, tripSum i x0 x1 p q k
    rw [Finset.range_zero, Finset.sum_empty, add_zero]
  | n + 1, hn => by
    rw [show loopC i x0 x1 acc (n + 1) = tripC i x0 x1 ⟨n, hn⟩ (loopC i x0 x1 acc n) from loopC_succ i x0 x1 acc ⟨n, hn⟩,
      tripC_apply, loopC_apply i x0 x1 acc p q n (Nat.le_of_succ_le hn), Finset.sum_range_succ, add_assoc]
    refine congrArg (acc (ix2 p q) + ·) (congrArg (∑ k ∈ Finset.range n, tripSum i x0 x1 p q k + ·) ?_)
    unfold tripSum
    rw [dif_pos (show n < k1_t1_loop.trips from hn)]

end Cert.KernelIdeal.Val

end
-- ==== Proof.Value1b.lean ====
/-
  What the aggregation's launch leaves in the result array, at the ideal values — continued: the accumulator point
  by point, the written-back block, the cover, the array.

  Point t has row-block t / 4 and column-block t mod 4. Its adjacency block's entry (p, j) is the matrix's entry
  (1024·(t / 4) + p, 4096·(t mod 4) + j), and it sees the whole array of projected features. So trip k of point t
  adds block 4·(t mod 4) + k of the aggregation of row 1024·(t / 4) + p; the accumulator after point t holds that
  row's blocks 0 … 4·(t mod 4) + 3, by induction along the points; and where t mod 4 = 3 the block written back is
  rows 1024·(t / 4) … of the clamped whole sums. Point 4·(r / 1024) + 3 covers row r.
-/
import proofs.«107262_j54331336295083_2_alg».proof.Proof.Value1a

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr
open Cert.GraphConv (SIn SAdj SW SOut zeroWord)

variable (V : (c : Dev nD) → (b : Ref sig .tc) → Buf (Elt Ideal) ((c : Thread nD τ).loc b))

/-- The loop has four trips. -/
theorem trips_eq : k1_t1_loop.trips = 4 := by decide

/-- The printed index maps and the column-block coordinate, decided over the grid. -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = t.val / 4 ∧ win1_2.index t (1 : Fin 2) = 0
    ∧ ((grid1.coords t) 1).val = t.val % 4 :=
  (by decide +kernel : ∀ t : Fin grid1.N, _)

/-- Trip `k` of point `t` adds, at (p, q), block 4·(t mod 4) + k of the aggregation of row r = 1024·(t / 4) + p. -/
theorem tripSum_eq (c : Dev nD) (t : Fin cfg1.N) (p : Fin 1024) (q : Fin 32) (r : Fin 16384) (hr : r.val = 1024 * (t.val / 4) + p.val)
    (k : ℕ) (hk : k < 4) :
    tripSum (grid1.coords t) (iblk1 V c 0 t) (iblk1 V c 1 t) p q k
      = blkA (V c main_arg1) (V c main_v0) r q (4 * (t.val % 4) + k) := by
  have hN : t.val < 64 := lt_of_lt_of_eq t.isLt (show cfg1.N = 64 from N_1)
  have hk' : k < k1_t1_loop.trips := by rw [trips_eq]; exact hk
  obtain ⟨e00, e01, e10, e11, e20, e21, ec⟩ := idx_facts1 t
  have hp : p.val < 1024 := p.isLt
  unfold tripSum blkA
  rw [dif_pos hk', Cert.LibBlockRuns.block_of_lt 16 1024 rfl _ _ (by omega : 4 * (t.val % 4) + k < 16)]
  refine Finset.sum_congr rfl fun l _ => ?_
  have hl : l.val < 1024 := l.isLt
  have hA : iblk1 V c 0 t ((rA1 ⟨k, hk'⟩).idx (ix2 p l))
      = V c main_arg1 (ix2 r (⟨1024 * (4 * (t.val % 4) + k) + l.val, by omega⟩ : Fin 16384)) := by
    show V c main_arg1 (((cfg1.win 0).blk t).view.emb ((rA1 ⟨k, hk'⟩).idx (ix2 p l))) = _
    refine congrArg _ ?_
    funext a; apply Fin.ext
    match a with
    | ⟨0, _⟩ =>
      show win1_0.index t (0 : Fin 2) * 1024 + 1 * (k1_off1 ⟨k, hk'⟩ 0 + 1 * p.val) = r.val
      rw [k1_off1_eq]
      show win1_0.index t (0 : Fin 2) * 1024 + 1 * (0 + 1 * p.val) = r.val
      omega
    | ⟨1, _⟩ =>
      show win1_0.index t (1 : Fin 2) * 4096 + 1 * (k1_off1 ⟨k, hk'⟩ 1 + 1 * l.val) = 1024 * (4 * (t.val % 4) + k) + l.val
      rw [k1_off1_eq]
      show win1_0.index t (1 : Fin 2) * 4096 + 1 * (1024 * k + 1 * l.val) = 1024 * (4 * (t.val % 4) + k) + l.val
      omega
  have hS : iblk1 V c 1 t ((rS1 (grid1.coords t) ⟨k, hk'⟩).idx (ix2 l q))
      = V c main_v0 (ix2 (⟨1024 * (4 * (t.val % 4) + k) + l.val, by omega⟩ : Fin 16384) q) := by
    show V c main_v0 (((cfg1.win 1).blk t).view.emb ((rS1 (grid1.coords t) ⟨k, hk'⟩).idx (ix2 l q))) = _
    refine congrArg _ ?_
    funext a; apply Fin.ext
    match a with
    | ⟨0, _⟩ =>
      show win1_1.index t (0 : Fin 2) * 16384 + 1 * (k1_off2 (grid1.coords t) ⟨k, hk'⟩ 0 + 1 * l.val) = 1024 * (4 * (t.val % 4) + k) + l.val
      rw [k1_off2_eq]
      show win1_1.index t (0 : Fin 2) * 16384 + 1 * (4096 * ((grid1.coords t) 1).val + 1024 * k + 1 * l.val) = 1024 * (4 * (t.val % 4) + k) + l.val
      omega
    | ⟨1, _⟩ =>
      show win1_1.index t (1 : Fin 2) * 32 + 1 * (k1_off2 (grid1.coords t) ⟨k, hk'⟩ 1 + 1 * q.val) = q.val
      rw [k1_off2_eq]
      show win1_1.index t (1 : Fin 2) * 32 + 1 * (0 + 1 * q.val) = q.val
      omega
  unfold termA
  rw [hA, hS]

/-- The cleared accumulator is zero everywhere. -/
theorem zeroC_apply (p : Fin 1024) (q : Fin 32) : zeroC (F := Ideal) (ix2 p q) = 0 := by
  unfold zeroC
  rw [View.canon_unit_zero hz]
  exact PayVal.pay_zero p q

/-- A point's four trips add four consecutive blocks. -/
theorem point_sum (c : Dev nD) (n : ℕ) (hn : n < cfg1.N) (p : Fin 1024) (q : Fin 32) (r : Fin 16384) (hr : r.val = 1024 * (n / 4) + p.val) :
    ∑ k ∈ Finset.range k1_t1_loop.trips, tripSum (grid1.coords ⟨n, hn⟩) (iblk1 V c 0 ⟨n, hn⟩) (iblk1 V c 1 ⟨n, hn⟩) p q k
      = ∑ k ∈ Finset.range 4, blkA (V c main_arg1) (V c main_v0) r q (4 * (n % 4) + k) := by
  rw [trips_eq]
  exact Finset.sum_congr rfl fun k hk => tripSum_eq V c ⟨n, hn⟩ p q r hr k (Finset.mem_range.mp hk)

/-- The accumulator after position `n`, at (p, q): blocks 0 … 4·(n mod 4) + 3 of the aggregation of row 1024·(n / 4) + p. -/
theorem scr_apply (c : Dev nD) : ∀ (n : ℕ) (hn : n < cfg1.N) (p : Fin 1024) (q : Fin 32) (r : Fin 16384), r.val = 1024 * (n / 4) + p.val →
    scrAt V c n hn (ix2 p q) = ∑ b ∈ Finset.range (4 * (n % 4) + 4), blkA (V c main_arg1) (V c main_v0) r q b
  | 0, hn, p, q, r, hr => by
    show loopC (grid1.coords ⟨0, hn⟩) (iblk1 V c 0 ⟨0, hn⟩) (iblk1 V c 1 ⟨0, hn⟩) zeroC k1_t1_loop.trips (ix2 p q) = _
    rw [loopC_apply _ _ _ _ p q _ le_rfl, zeroC_apply, zero_add, point_sum V c 0 hn p q r hr]
    simp only [Nat.zero_mod, Nat.mul_zero, Nat.zero_add]
  | n + 1, hn, p, q, r, hr => by
    rw [scrAt, loopC_apply _ _ _ _ p q _ le_rfl, point_sum V c (n + 1) hn p q r hr]
    by_cases h0 : (n + 1) % 4 = 0
    · rw [if_pos h0, zeroC_apply, zero_add, h0]
      simp only [Nat.mul_zero, Nat.zero_add]
    · rw [if_neg h0, scr_apply c n (Nat.lt_of_succ_lt hn) p q r (by omega)]
      have e : 4 * (n % 4) + 4 = 4 * ((n + 1) % 4) := by omega
      rw [e, ← Finset.sum_range_add]

/-! ## The written-back block, the cover, the array -/

/-- What a point of the last column-block writes back is its block of `G1` of the two arrays as the launch finds them. -/
theorem flushed1_eq (c : Dev nD) (t : Fin cfg1.N) (hf : (cfg1.win 2).flush t = true) :
    (dat1 V c).flushed 2 t = ((cfg1.win 2).blk t).view.read (Elt Ideal) (G1 (V c main_arg1) (V c main_v0)) := by
  have h3 : t.val % 4 = 3 := (flush1_2 t).mp hf
  have hN : t.val < 64 := lt_of_lt_of_eq t.isLt (show cfg1.N = 64 from N_1)
  obtain ⟨e00, e01, e10, e11, e20, e21, ec⟩ := idx_facts1 t
  show (cfg1.win 2).cut (grid1.coords t) ((dat1 V c).after 2 t) = _
  rw [after1_2]
  unfold out1_2
  rw [View.canon_unit_zero hz]
  simp only [View.ld_unit_zero (S := S1024x32) hz]
  funext j
  obtain ⟨p, q, rfl⟩ : ∃ (p : Fin 1024) (q : Fin 32), j = ix2 p q := ⟨j 0, j 1, eq_ix2 j⟩
  have hp : p.val < 1024 := p.isLt
  show k1_pay3 (F := Ideal) (scrAt V c t.val t.isLt) (ix2 p q) = G1 (V c main_arg1) (V c main_v0) (((cfg1.win 2).blk t).view.emb (ix2 p q))
  have hi : ((cfg1.win 2).blk t).view.emb (ix2 p q) = ix2 (⟨1024 * (t.val / 4) + p.val, by omega⟩ : Fin 16384) q := by
    funext a; apply Fin.ext
    match a with
    | ⟨0, _⟩ => show win1_2.index t (0 : Fin 2) * 1024 + 1 * p.val = 1024 * (t.val / 4) + p.val; omega
    | ⟨1, _⟩ => show win1_2.index t (1 : Fin 2) * 32 + 1 * q.val = q.val; omega
  rw [hi, G1_ix2, PayVal.pay_relu, scr_apply V c t.val t.isLt p q ⟨1024 * (t.val / 4) + p.val, by omega⟩ rfl, h3]

/-- An index of the result array is in point `t`'s block iff each coordinate is in the block's range on its axis. -/
theorem mem_blk1 (t : Fin cfg1.N) (i : S16384x32.Idx) :
    i ∈ ((cfg1.win 2).blk t).view.set ↔ ∀ a : Fin 2, win1_2.index t a * S1024x32.size a ≤ (i a).val ∧ (i a).val < win1_2.index t a * S1024x32.size a + S1024x32.size a := by
  show i ∈ ((View.whole main_v1).slice (win1_2.rect t)).set ↔ _
  rw [View.set_slice_whole, Rect.mem_set_unit]
  exact Iff.rfl

/-- Every index of the result array lies in the block some point of the last column-block writes back. -/
theorem cover1_2 (i : S16384x32.Idx) : ∃ t : Fin cfg1.N, (cfg1.win 2).flush t = true ∧ i ∈ ((cfg1.win 2).blk t).view.set := by
  have hi0 : (i 0).val < 16384 := (i 0).isLt
  have hi1 : (i 1).val < 32 := (i 1).isLt
  have hN : cfg1.N = 64 := N_1
  let t : Fin cfg1.N := ⟨4 * ((i 0).val / 1024) + 3, by omega⟩
  have htv : t.val = 4 * ((i 0).val / 1024) + 3 := rfl
  obtain ⟨e00, e01, e10, e11, e20, e21, ec⟩ := idx_facts1 t
  refine ⟨t, (flush1_2 t).mpr (by omega), ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 32 ≤ (i 1).val ∧ (i 1).val < win1_2.index t (1 : Fin 2) * 32 + 32; omega

/-- THE RESULT ARRAY after the launch: `G1` of the adjacency matrix and the projected features as the launch finds them. -/
theorem final1 (c : Dev nD) : (dat1 V c).arrAt 2 cfg1.N = G1 (V c main_arg1) (V c main_v0) :=
  (dat1 V c).arrAt_eq_of_cover 2 _ (fun t hf => flushed1_eq V c t hf) (cover1_2)

end Cert.KernelIdeal.Val

end
-- ==== Proof.RefIsSpec.lean ====
/-
  The reference program's result is the specified layer.

  The reference computes, in order: the projection x · w, the aggregation adj · (x · w), and the maximum of
  that with the zero word broadcast over the result's shape.  Read at the index (r, c), each of the two
  products is the sum over its contraction coordinate of the operands' products, the left operand read at
  (row, coordinate) and the right at (coordinate, column); the broadcast reads the zero word everywhere.  That
  is the specification's value at (r, c) term by term.
-/
import proofs.«107262_j54331336295083_2_alg».proof.Proof.Gen.ReferenceIdeal.Read
import proofs.«107262_j54331336295083_2_alg».proof.Proof.Spec

noncomputable section

open scoped BigOperators

namespace Cert.ReferenceIdeal.RefValue

open Idealize.ShloMosaic Idealize.ShloMosaic.ValueIdx Cert.ReferenceIdeal Cert.ReferenceIdeal.Read

/-! ## The products' operand indices by coordinates -/

/-- The aggregation's left operand at output (r, c), coordinate k: (r, k). -/
theorem lidx_agg (r : Fin 16384) (c : Fin 32) (k : Fin 16384) : lidx_main_v1 (ix2 r c) k = ix2 r k :=
  funext fun a => Fin.ext (by match a with | ⟨0, _⟩ => rfl | ⟨1, _⟩ => rfl)

/-- The aggregation's right operand at output (r, c), coordinate k: (k, c). -/
theorem ridx_agg (r : Fin 16384) (c : Fin 32) (k : Fin 16384) : ridx_main_v1 (ix2 r c) k = ix2 k c :=
  funext fun a => Fin.ext (by match a with | ⟨0, _⟩ => rfl | ⟨1, _⟩ => rfl)

/-- The projection's left operand at output (k, c), coordinate j: (k, j). -/
theorem lidx_proj (k : Fin 16384) (c : Fin 32) (j : Fin 128) : lidx_main_v0 (ix2 k c) j = ix2 k j :=
  funext fun a => Fin.ext (by match a with | ⟨0, _⟩ => rfl | ⟨1, _⟩ => rfl)

/-- The projection's right operand at output (k, c), coordinate j: (j, c). -/
theorem ridx_proj (k : Fin 16384) (c : Fin 32) (j : Fin 128) : ridx_main_v0 (ix2 k c) j = ix2 j c :=
  funext fun a => Fin.ext (by match a with | ⟨0, _⟩ => rfl | ⟨1, _⟩ => rfl)

/-! ## The reference is the specification -/

/-- The reference's result, as a function of its three arguments, is the specified layer. -/
theorem ref_is_out (x0 : (⟨Cert.ReferenceIdeal.S16384x128, .f32⟩ : BufTy).Contents (Elt Ideal))
    (x1 : (⟨Cert.ReferenceIdeal.S16384x16384, .f32⟩ : BufTy).Contents (Elt Ideal))
    (x2 : (⟨Cert.ReferenceIdeal.S128x32, .f32⟩ : BufTy).Contents (Elt Ideal)) :
    Cert.ReferenceIdeal.Read.val_main_v2 (F := Ideal) x0 x1 x2 = Cert.GraphConv.out x0 x1 x2 := by
  funext i
  obtain ⟨r, c, rfl⟩ : ∃ (r : Fin 16384) (c : Fin 32), i = ix2 r c := ⟨i 0, i 1, eq_ix2 i⟩
  rw [val_main_v2_apply, val_main_v1_apply, val_main_call0_v0_apply, val_main_call0_cst_apply]
  simp only [val_main_v0_apply, lidx_agg, ridx_agg, lidx_proj, ridx_proj]
  rfl

end Cert.ReferenceIdeal.RefValue

end
-- ==== Proof.lean ====
/-
  The certificate of a graph-convolution layer: a two-launch kernel against its reference.

  Both programs compute, from features x : [16384, 128], an adjacency matrix adj : [16384, 16384] and a weight
  w : [128, 32], the array  out[r, c] = max (Σ_k adj[r, k] · (Σ_j x[k, j] · w[j, c])) 0.

  The kernel's first launch writes the projected features Σ_j x[k, j] · w[j, c] block of rows by block of rows; its
  second launch accumulates, for each block of 1024 rows, the aggregation's 16384 terms in sixteen blocks of 1024 —
  four column-blocks of the grid, four trips of a loop at each — into an accumulator cleared at the first
  column-block, and stores it clamped below at zero at the last. The reference takes the two matrix products
  whole and clamps. On the extended reals a change of float format is the identity, a matrix product into a zero
  accumulator is the plain sum, and addition is commutative and associative, so the sixteen blocks accumulated in
  order are the whole sum: the two results agree at every index, with no use of the inputs' finiteness.

  The three frames: the kernel's two programs by their runs (each launch's body obligation, the accumulator carried
  in the second launch's invariant); the reference's by its run. The idealization rewrote no operation.
-/
import proofs.«107262_j54331336295083_2_alg».proof.Defs
import proofs.«107262_j54331336295083_2_alg».proof.Proof.Gen.Kernel
import proofs.«107262_j54331336295083_2_alg».proof.Proof.Gen.KernelIdeal
import proofs.«107262_j54331336295083_2_alg».proof.Proof.Gen.ReferenceIdeal
import proofs.«107262_j54331336295083_2_alg».proof.Proof.Gen.ReferenceIdeal.Read
import proofs.«107262_j54331336295083_2_alg».proof.Proof.Gen.Pre_finite_inputs
import proofs.«107262_j54331336295083_2_alg».proof.Proof.BitsRun
import proofs.«107262_j54331336295083_2_alg».proof.Proof.Run
import proofs.«107262_j54331336295083_2_alg».proof.Proof.Value0
import proofs.«107262_j54331336295083_2_alg».proof.Proof.Value1b
import proofs.«107262_j54331336295083_2_alg».proof.Proof.RefIsSpec
import Idealize.ShloMosaic.Adequacy
import Idealize.ShloMosaic.Init

noncomputable section

open scoped BigOperators

namespace Cert.Proof

open Idealize.ShloMosaic Idealize.ShloMosaic.TcCoe Idealize.ShloMosaic.ValueIdx Idealize.SL.Sem
open Cert.GraphConv (SIn SAdj SW SOut)

/-! ## The kernel's function is the specification -/

/-- The sixteen blocks of the aggregation over the projected features are the whole aggregation: the kernel's two
    launches composed are the layer. -/
theorem kernel_is_out (x : SIn.Idx → EReal) (adj : SAdj.Idx → EReal) (w : SW.Idx → EReal) :
    Cert.KernelIdeal.Val.G1 adj (Cert.KernelIdeal.Val.G0 x w) = Cert.GraphConv.out x adj w := by
  funext i
  obtain ⟨r, c', rfl⟩ : ∃ (r : Fin 16384) (c' : Fin 32), i = ix2 r c' := ⟨i 0, i 1, eq_ix2 i⟩
  rw [Cert.KernelIdeal.Val.G1_ix2, Cert.GraphConv.out_ix2]
  unfold Cert.GraphConv.outAt
  have hb : ∀ b, Cert.KernelIdeal.Val.blkA adj (Cert.KernelIdeal.Val.G0 x w) r c' b = Cert.GraphConv.aggBlock x adj w r c' b :=
    fun _ => rfl
  rw [Finset.sum_congr rfl (fun b _ => hb b), Cert.GraphConv.agg_eq_blocks]

/-- What the kernel's run leaves in the result array is the layer of the launch contents of the three arguments. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Fr.dat1 (Cert.KernelIdeal.Fr.V1 m ρ) c).arrAt 2 Cert.KernelIdeal.cfg1.N
      = Cert.GraphConv.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  refine (Cert.KernelIdeal.Val.final1 (Cert.KernelIdeal.Fr.V1 m ρ) c).trans ?_
  rw [Cert.KernelIdeal.Fr.V1_main_arg1 m ρ c, Cert.KernelIdeal.Fr.V1_main_v0 m ρ c,
    Cert.KernelIdeal.Val.final0 (Cert.KernelIdeal.Fr.V0 m ρ) c]
  exact kernel_is_out _ _ _

/-! ## The claims -/

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the layer of the arguments in their result arrays. -/
theorem algebraic : Cert.algebraic_KernelIdeal_ReferenceIdeal := by
  intro m ρ m' ρ' _ hagree
  refine ⟨fun c => Cert.GraphConv.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨((h c).1).trans (kernel_value m ρ c), (h c).2⟩)
      (Cert.KernelIdeal.Fr.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v2_eq, Cert.ReferenceIdeal.RefValue.ref_is_out, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
